-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S2x6400000 : Shape := ⟨2, ![2, 6400000]⟩
abbrev S200000 : Shape := ⟨1, ![200000]⟩
abbrev S3x32 : Shape := ⟨2, ![3, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S32x1 : Shape := ⟨2, ![32, 1]⟩
abbrev S1 : Shape := ⟨1, ![1]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_
  bcast_S_S4x32 : S_.BroadcastsInDim S4x32 (![] : Fin 0 → Fin S4x32.rank)
  reducesTo_S4x32_S_d0_1 : S4x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S4x32x32 .f32) (main_arg10 : FVec F S4x32 .f32) (main_arg11 : FVec F S32x32 .f32) (main_arg12 : FVec F S32 .f32) (main_arg13 : FVec F S32x1 .f32) (main_arg14 : FVec F S1 .f32) (main_v33 : IVec S_ 1) : IVec S_ 1 :=
  let main_v34 : FVec F S4x32x32 .f32 := Host.absf main_arg9
  let main_cst_12 : FVec F S_ .f32 := constant S_ .f32 0x7F800000#32
  let main_v35 : FVec F S4x32x32 .f32 := broadcastInDim S4x32x32 ![] bcast_S_S4x32x32 main_cst_12
  let main_v36 : IVec S4x32x32 1 := cmpf .olt main_v34 main_v35
  let main_c_13 : IVec S_ 1 := constantI S_ 1 1#1
  let main_v37 : IVec S_ 1 := (fun x v => Host.reduce IntOp.andi x v reducesTo_S4x32x32_S_d0_1_2 h_S_) main_v36 main_c_13
  let main_v38 : IVec S_ 1 := andi main_v33 main_v37
  let main_v39 : FVec F S4x32 .f32 := Host.absf main_arg10
  let main_cst_14 : FVec F S_ .f32 := constant S_ .f32 0x7F800000#32
  let main_v40 : FVec F S4x32 .f32 := broadcastInDim S4x32 ![] bcast_S_S4x32 main_cst_14
  let main_v41 : IVec S4x32 1 := cmpf .olt main_v39 main_v40
  let main_c_15 : IVec S_ 1 := constantI S_ 1 1#1
  let main_v42 : IVec S_ 1 := (fun x v => Host.reduce IntOp.andi x v reducesTo_S4x32_S_d0_1 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S32 .f32) (main_arg7 : FVec F S4x32x32 .f32) (main_arg8 : FVec F S4x32 .f32) (main_arg9 : FVec F S4x32x32 .f32) (main_arg10 : FVec F S4x32 .f32) (main_arg11 : FVec F S32x32 .f32) (main_arg12 : FVec F S32 .f32) (main_arg13 : FVec F S32x1 .f32) (main_arg14 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S4x32x32 .f32 := Host.absf main_arg7
  let main_cst_8 : FVec F S_ .f32 := constant S_ .f32 0x7F800000#32
  let main_v25 : FVec F S4x32x32 .f32 := broadcastInDim S4x32x32 ![] bcast_S_S4x32x32 main_cst_8
  let main_v26 : IVec S4x32x32 1 := cmpf .olt main_v24 main_v25
  let main_c_9 : IVec S_ 1 := constantI S_ 1 1#1
  let main_v27 : IVec S_ 1 := (fun x v => Host.reduce IntOp.andi x v reducesTo_S4x32x32_S_d0_1_2 h_S_) main_v26 main_c_9
  let main_v28 : IVec S_ 1 := andi main_v23 main_v27
  let main_v29 : FVec F S4x32 .f32 := Host.absf main_arg8
  let main_cst_10 : FVec F S_ .f32 := constant S_ .f32 0x7F800000#32
  let main_v30 : FVec F S4x32 .f32 := broadcastInDim S4x32 ![] bcast_S_S4x32 main_cst_10
  let main_v31 : IVec S4x32 1 := cmpf .olt main_v29 main_v30
  let main_c_11 : IVec S_ 1 := constantI S_ 1 1#1
  let main_v32 : IVec S_ 1 := (fun x v => Host.reduce IntOp.andi x v reducesTo_S4x32_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S200000x3 .f32) (main_arg1 : IVec S2x6400000 32) (main_arg2 : IVec S200000 32) (main_arg3 : FVec F S3x32 .f32) (main_arg4 : FVec F S32 .f32) (main_arg5 : FVec F S32x32 .f32) (main_arg6 : FVec F S32 .f32) (main_arg7 : FVec F S4x32x32 .f32) (main_arg8 : FVec F S4x32 .f32) (main_arg9 : FVec F S4x32x32 .f32) (main_arg10 : FVec F S4x32 .f32) (main_arg11 : FVec F S32x32 .f32) (main_arg12 : FVec F S32 .f32) (main_arg13 : FVec F S32x1 .f32) (main_arg14 : FVec F S1 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_v13 main_v16
-- ==== Kernel.lean ====
abbrev S200000x3 : Shape := ⟨2, ![200000, 3]⟩
abbrev S2x6400000 : Shape := ⟨2, ![2, 6400000]⟩
abbrev S200000 : Shape := ⟨1, ![200000]⟩
abbrev S3x32 : Shape := ⟨2, ![3, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S32x1 : Shape := ⟨2, ![32, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S1x32 : Shape := ⟨2, ![1, 32]⟩
abbrev S200000x32 : Shape := ⟨2, ![200000, 32]⟩
abbrev S8000x3 : Shape := ⟨2, ![8000, 3]⟩
abbrev S8000x32 : Shape := ⟨2, ![8000, 32]⟩
abbrev S1x32x32 : Shape := ⟨3, ![1, 32, 32]⟩
abbrev S6400000x32 : Shape := ⟨2, ![6400000, 32]⟩
abbrev S512x32 : Shape := ⟨2, ![512, 32]⟩
abbrev S200000x1 : Shape := ⟨2, ![200000, 1]⟩
abbrev S1x1 : Shape := ⟨2, ![1, 1]⟩
abbrev S512x1 : Shape := ⟨2, ![512, 1]⟩
abbrev S512 : Shape := ⟨1, ![512]⟩

abbrev nBuf : Space → Nat
  | .hbm => 139
  | .vmem => 56
  | .smem => 0
  | _ => 0

abbrev hbmTy0_0 (i : Nat) : BufTy := match i % 128 with
  | 0 => ⟨S200000x3, .f32⟩
  | 1 => ⟨S2x6400000, .i32⟩
  | 2 => ⟨S200000, .i32⟩
  | 3 => ⟨S3x32, .f32⟩
  | 4 => ⟨S32, .f32⟩
  | 5 => ⟨S32x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S32x32, .f32⟩
  | 12 => ⟨S32, .f32⟩
  | 13 => ⟨S32x1, .f32⟩
  | 14 => ⟨S1, .f32⟩
  | 15 => ⟨S1x6400000, .i32⟩
  | 16 => ⟨S6400000, .i32⟩
  | 17 => ⟨S1x6400000, .i32⟩
  | 18 => ⟨S6400000, .i32⟩
  | 19 => ⟨S_, .i32⟩
  | 20 => ⟨S6400000, .i32⟩
  | 21 => ⟨S6400000, .i1⟩
  | 22 => ⟨S_, .i32⟩
  | 23 => ⟨S6400000, .i32⟩
  | 24 => ⟨S6400000, .i32⟩
  | 25 => ⟨S6400000, .i32⟩
  | 26 => ⟨S6400000x1, .i32⟩
  | 27 => ⟨S6400000x3, .f32⟩
  | 28 => ⟨S_, .f32⟩
  | 29 => ⟨S200000x3, .f32⟩
  | 30 => ⟨S6400000x1, .i32⟩
  | 31 => ⟨S200000x3, .f32⟩
  | 32 => ⟨S1x32, .f32⟩
  | 33 => ⟨S1x32, .f32⟩
  | 34 => ⟨S200000x32, .f32⟩
  | 35 => ⟨S1x32x32, .f32⟩
  | 36 => ⟨S32x32, .f32⟩
  | 37 => ⟨S1x32, .f32⟩
  | 38 => ⟨S32, .f32⟩
  | 39 => ⟨S1x32x32, .f32⟩
  | 40 => ⟨S32x32, .f32⟩
  | 41 => ⟨S1x32, .f32⟩
  | 42 => ⟨S32, .f32⟩
  | 43 => ⟨S_, .i32⟩
  | 44 => ⟨S6400000, .i32⟩
  | 45 => ⟨S6400000, .i1⟩
  | 46 => ⟨S_, .i32⟩
  | 47 => ⟨S6400000, .i32⟩
  | 48 => ⟨S6400000, .i32⟩
  | 49 => ⟨S6400000, .i32⟩
  | 50 => ⟨S6400000x1, .i32⟩
  | 51 => ⟨S6400000x32, .f32⟩
  | 52 => ⟨S_, .f32⟩
  | 53 => ⟨S200000x32, .f32⟩
  | 54 => ⟨S6400000x1, .i32⟩
  | 55 => ⟨S200000x32, .f32⟩
  | 56 => ⟨S1x32, .f32⟩
  | 57 => ⟨S1x32, .f32⟩
  | 58 => ⟨S200000x32, .f32⟩
  | 59 => ⟨S1x32x32, .f32⟩
  | 60 => ⟨S32x32, .f32⟩
  | 61 => ⟨S1x32, .f32⟩
  | 62 => ⟨S32, .f32⟩
  | 63 => ⟨S1x32x32, .f32⟩
  | 64 => ⟨S32x32, .f32⟩
  | 65 => ⟨S1x32, .f32⟩
  | 66 => ⟨S32, .f32⟩
  | 67 => ⟨S_, .i32⟩
  | 68 => ⟨S6400000, .i32⟩
  | 69 => ⟨S6400000, .i1⟩
  | 70 => ⟨S_, .i32⟩
  | 71 => ⟨S6400000, .i32⟩
  | 72 => ⟨S6400000, .i32⟩
  | 73 => ⟨S6400000, .i32⟩
  | 74 => ⟨S6400000x1, .i32⟩
  | 75 => ⟨S6400000x32, .f32⟩
  | 76 => ⟨S_, .f32⟩
  | 77 => ⟨S200000x32, .f32⟩
  | 78 => ⟨S6400000x1, .i32⟩
  | 79 => ⟨S200000x32, .f32⟩
  | 80 => ⟨S1x32, .f32⟩
  | 81 => ⟨S1x32, .f32⟩
  | 82 => ⟨S200000x32, .f32⟩
  | 83 => ⟨S1x32x32, .f32⟩
  | 84 => ⟨S32x32, .f32⟩
  | 85 => ⟨S1x32, .f32⟩
  | 86 => ⟨S32, .f32⟩
  | 87 => ⟨S1x32x32, .f32⟩
  | 88 => ⟨S32x32, .f32⟩
  | 89 => ⟨S1x32, .f32⟩
  | 90 => ⟨S32, .f32⟩
  | 91 => ⟨S_, .i32⟩
  | 92 => ⟨S6400000, .i32⟩
  | 93 => ⟨S6400000, .i1⟩
  | 94 => ⟨S_, .i32⟩
  | 95 => ⟨S6400000, .i32⟩
  | 96 => ⟨S6400000, .i32⟩
  | 97 => ⟨S6400000, .i32⟩
  | 98 => ⟨S6400000x1, .i32⟩
  | 99 => ⟨S6400000x32, .f32⟩
  | 100 => ⟨S_, .f32⟩
  | 101 => ⟨S200000x32, .f32⟩
  | 102 => ⟨S6400000x1, .i32⟩
  | 103 => ⟨S200000x32, .f32⟩
  | 104 => ⟨S1x32, .f32⟩
  | 105 => ⟨S1x32, .f32⟩
  | 106 => ⟨S200000x32, .f32⟩
  | 107 => ⟨S1x32x32, .f32⟩
  | 108 => ⟨S32x32, .f32⟩
  | 109 => ⟨S1x32, .f32⟩
  | 110 => ⟨S32, .f32⟩
  | 111 => ⟨S1x32x32, .f32⟩
  | 112 => ⟨S32x32, .f32⟩
  | 113 => ⟨S1x32, .f32⟩
  | 114 => ⟨S32, .f32⟩
  | 115 => ⟨S_, .i32⟩
  | 116 => ⟨S6400000, .i32⟩
  | 117 => ⟨S6400000, .i1⟩
  | 118 => ⟨S_, .i32⟩
  | 119 => ⟨S6400000, .i32⟩
  | 120 => ⟨S6400000, .i32⟩
  | 121 => ⟨S6400000, .i32⟩
  | 122 => ⟨S6400000x1, .i32⟩
  | 123 => ⟨S6400000x32, .f32⟩
  | 124 => ⟨S_, .f32⟩
  | 125 => ⟨S200000x32, .f32⟩
  | 126 => ⟨S6400000x1, .i32⟩
  | 127 => ⟨S200000x32, .f32⟩
  | _ => ⟨S200000x3, .f32⟩

abbrev hbmTy0_1 (i : Nat) : BufTy := match i % 128 with
  | 0 => ⟨S1x32, .f32⟩
  | 1 => ⟨S1x32, .f32⟩
  | 2 => ⟨S200000x32, .f32⟩
  | 3 => ⟨S_, .f32⟩
  | 4 => ⟨S512x32, .f32⟩
  | 5 => ⟨S200000x1, .i32⟩
  | 6 => ⟨S512x32, .f32⟩
  | 7 => ⟨S1x32, .f32⟩
  | 8 => ⟨S1x1, .f32⟩
  | 9 => ⟨S512x1, .f32⟩
  | 10 => ⟨S512, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | .local _ .vmem, ⟨0, _⟩ => ⟨S8000x3, .f32⟩
  | .local _ .vmem, ⟨1, _⟩ => ⟨S8000x3, .f32⟩
  | .local _ .vmem, ⟨2, _⟩ => ⟨S8000x3, .f32⟩
  | .local _ .vmem, ⟨3, _⟩ => ⟨S8000x3, .f32⟩
  | .local _ .vmem, ⟨4, _⟩ => ⟨S3x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S8000x32, .f32⟩
  | .local _ .vmem, ⟨9, _⟩ => ⟨S8000x32, .f32⟩
  | .local _ .vmem, ⟨10, _⟩ => ⟨S8000x32, .f32⟩
  | .local _ .vmem, ⟨11, _⟩ => ⟨S8000x32, .f32⟩
  | .local _ .vmem, ⟨12, _⟩ => ⟨S8000x32, .f32⟩
  | .local _ .vmem, ⟨13, _⟩ => ⟨S8000x32, .f32⟩
  | .local _ .vmem, ⟨14, _⟩ => ⟨S32x32, .f32⟩
  | .local _ .vmem, ⟨15, _⟩ => ⟨S1x32, .f32⟩
  | .local _ .vmem, ⟨16, _⟩ => ⟨S32x32, .f32⟩
  | .local _ .vmem, ⟨17, _⟩ => ⟨S1x32, .f32⟩
  | .local _ .vmem, ⟨18, _⟩ => ⟨S8000x32, .f32⟩
  | .local _ .vmem, ⟨19, _⟩ => ⟨S8000x32, .f32⟩
  | .local _ .vmem, ⟨20, _⟩ => ⟨S8000x32, .f32⟩
  | .local _ .vmem, ⟨21, _⟩ => ⟨S8000x32, .f32⟩
  | .local _ .vmem, ⟨22, _⟩ => ⟨S8000x32, .f32⟩
  | .local _ .vmem, ⟨23, _⟩ => ⟨S8000x32, .f32⟩
  | .local _ .vmem, ⟨24, _⟩ => ⟨S32x32, .f32⟩
  | .local _ .vmem, ⟨25, _⟩ => ⟨S1x32, .f32⟩
  | .local _ .vmem, ⟨26, _⟩ => ⟨S32x32, .f32⟩
  | .local _ .vmem, ⟨27, _⟩ => ⟨S1x32, .f32⟩
  | .local _ .vmem, ⟨28, _⟩ => ⟨S8000x32, .f32⟩
  | .local _ .vmem, ⟨29, _⟩ => ⟨S8000x32, .f32⟩
  | .local _ .vmem, ⟨30, _⟩ => ⟨S8000x32, .f32⟩
  | .local _ .vmem, ⟨31, _⟩ => ⟨S8000x32, .f32⟩
  | .local _ .vmem, ⟨32, _⟩ => ⟨S8000x32, .f32⟩
  | .local _ .vmem, ⟨33, _⟩ => ⟨S8000x32, .f32⟩
  | .local _ .vmem, ⟨34, _⟩ => ⟨S32x32, .f32⟩
  | .local _ .vmem, ⟨35, _⟩ => ⟨S1x32, .f32⟩
  | .local _ .vmem, ⟨36, _⟩ => ⟨S32x32, .f32⟩
  | .local _ .vmem, ⟨37, _⟩ => ⟨S1x32, .f32⟩
  | .local _ .vmem, ⟨38, _⟩ => ⟨S8000x32, .f32⟩
  | .local _ .vmem, ⟨39, _⟩ => ⟨S8000x32, .f32⟩
  | .local _ .vmem, ⟨40, _⟩ => ⟨S8000x32, .f32⟩
  | .local _ .vmem, ⟨41, _⟩ => ⟨S8000x32, .f32⟩
  | .local _ .vmem, ⟨42, _⟩ => ⟨S8000x32, .f32⟩
  | .local _ .vmem, ⟨43, _⟩ => ⟨S8000x32, .f32⟩
  | .local _ .vmem, ⟨44, _⟩ => ⟨S32x32, .f32⟩
  | .local _ .vmem, ⟨45, _⟩ => ⟨S1x32, .f32⟩
  | .local _ .vmem, ⟨46, _⟩ => ⟨S32x32, .f32⟩
  | .local _ .vmem, ⟨47, _⟩ => ⟨S1x32, .f32⟩
  | .local _ .vmem, ⟨48, _⟩ => ⟨S8000x32, .f32⟩
  | .local _ .vmem, ⟨49, _⟩ => ⟨S8000x32, .f32⟩
  | .local _ .vmem, ⟨50, _⟩ => ⟨S512x32, .f32⟩
  | .local _ .vmem, ⟨51, _⟩ => ⟨S32x32, .f32⟩
  | .local _ .vmem, ⟨52, _⟩ => ⟨S1x32, .f32⟩
  | .local _ .vmem, ⟨53, _⟩ => ⟨S32x1, .f32⟩
  | .local _ .vmem, ⟨54, _⟩ => ⟨S1x1, .f32⟩
  | .local _ .vmem, ⟨55, _⟩ => ⟨S512x1, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_1 : Ref sig .tc := ⟨.hbm, 43, rfl⟩
abbrev main_v25 : Ref sig .tc := ⟨.hbm, 44, rfl⟩
abbrev main_v26 : Ref sig .tc := ⟨.hbm, 45, rfl⟩
abbrev main_c_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_7 : Ref sig .tc := ⟨.hbm, 91, rfl⟩
abbrev main_v67 : Ref sig .tc := ⟨.hbm, 92, rfl⟩
abbrev main_v68 : Ref sig .tc := ⟨.hbm, 93, rfl⟩
abbrev main_c_8 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_9 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_10 : Ref sig .tc := ⟨.hbm, 115, rfl⟩
abbrev main_v88 : Ref sig .tc := ⟨.hbm, 116, rfl⟩
abbrev main_v89 : Ref sig .tc := ⟨.hbm, 117, rfl⟩
abbrev main_c_11 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_12 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_13 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x32 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x3 : S_.BroadcastsInDim S200000x3 (![] : Fin 0 → Fin S200000x3.rank)
  shapeCasts_S32_S1x32 : S32.ShapeCasts S1x32
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  inb_S8000x32_S8000x32_0_0 : ∀ a, (![0, 0] : Fin 2 → Nat) a + S8000x32.size a ≤ S8000x32.size a
  h_S8000x32 : 0 < S8000x32.numel
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  shapeCasts_S1x32_S32 : S1x32.ShapeCasts S32
  bcast_S_S200000x32 : S_.BroadcastsInDim S200000x32 (![] : Fin 0 → Fin S200000x32.rank)
  shapeCasts_S8000x32_S8000x32 : S8000x32.ShapeCasts S8000x32
  shapeCasts_S32x32_S32x32 : S32x32.ShapeCasts S32x32
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  bcast_S_S512x32 : S_.BroadcastsInDim S512x32 (![] : Fin 0 → Fin S512x32.rank)
  bcast_S200000_S200000x1_0 : S200000.BroadcastsInDim S200000x1 (![0] : Fin 1 → Fin S200000x1.rank)
  shapeCasts_S1_S1x1 : S1.ShapeCasts S1x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  broadcasts_S1x32_S512x32 : S1x32.Broadcasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  gather_S200000x3_S6400000x1_S6400000x3_1_0_n_n_0_1_13_wf : GatherDims.WF S200000x3 S6400000x1 S6400000x3 [1] [0] [] [0] [] 1 ![1, 3]
  scatter_S200000x3_S6400000x1_S6400000x3_1_0_0_1_wf : ScatterDims.WF S200000x3 S6400000x1 S6400000x3 [1] [0] [0] 1
  dot_S8000x3_S3x32_S8000x32_1_0_0_1_n_n_wf : DotDims.WF S8000x3 S3x32 S8000x32 [1] [0] [0] [1] [] []
  dot_S8000x32_S32x32_S8000x32_1_0_0_1_n_n_wf : DotDims.WF S8000x32 S32x32 S8000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  scatter_S512x32_S200000x1_S200000x32_1_0_0_1_wf : ScatterDims.WF S512x32 S200000x1 S200000x32 [1] [0] [0] 1
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S200000x3.size a
  hwx0_0 : ∀ i : grid0.Coords, EltTy.bits .f32 = 32 ∨ (Rect.block (s := S200000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S200000x3.size a
  hwx0_1 : ∀ i : grid0.Coords, EltTy.bits .f32 = 32 ∨ (Rect.block (s := S200000x3) S8000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x32.size a ≤ S200000x32.size a
  hwx0_6 : ∀ i : grid0.Coords, EltTy.bits .f32 = 32 ∨ (Rect.block (s := S200000x32) S8000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S200000x32.size a
  hwx1_0 : ∀ i : grid1.Coords, EltTy.bits .f32 = 32 ∨ (Rect.block (s := S200000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S200000x32.size a
  hwx1_1 : ∀ i : grid1.Coords, EltTy.bits .f32 = 32 ∨ (Rect.block (s := S200000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x32.size a ≤ S200000x32.size a
  hwx1_6 : ∀ i : grid1.Coords, EltTy.bits .f32 = 32 ∨ (Rect.block (s := S200000x32) S8000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S200000x32.size a
  hwx2_0 : ∀ i : grid2.Coords, EltTy.bits .f32 = 32 ∨ (Rect.block (s := S200000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x32.size a ≤ S200000x32.size a
  hwx2_1 : ∀ i : grid2.Coords, EltTy.bits .f32 = 32 ∨ (Rect.block (s := S200000x32) S8000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x32.size a ≤ S200000x32.size a
  hwx2_6 : ∀ i : grid2.Coords, EltTy.bits .f32 = 32 ∨ (Rect.block (s := S200000x32) S8000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x32.size a ≤ S200000x32.size a
  hwx3_0 : ∀ i : grid3.Coords, EltTy.bits .f32 = 32 ∨ (Rect.block (s := S200000x32) S8000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x32.size a ≤ S200000x32.size a
  hwx3_1 : ∀ i : grid3.Coords, EltTy.bits .f32 = 32 ∨ (Rect.block (s := S200000x32) S8000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x32.size a ≤ S32x32.size a
  hwx3_4 : ∀ i : grid3.Coords, EltTy.bits .f32 = 32 ∨ (Rect.block (s := S32x32) S32x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x32.size a ≤ S200000x32.size a
  hwx3_6 : ∀ i : grid3.Coords, EltTy.bits .f32 = 32 ∨ (Rect.block (s := S200000x32) S8000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S200000x32.size a
  hwx4_0 : ∀ i : grid4.Coords, EltTy.bits .f32 = 32 ∨ (Rect.block (s := S200000x32) S8000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x32.size a ≤ S200000x32.size a
  hwx4_1 : ∀ i : grid4.Coords, EltTy.bits .f32 = 32 ∨ (Rect.block (s := S200000x32) S8000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8000x32.size a ≤ S200000x32.size a
  hwx4_6 : ∀ i : grid4.Coords, EltTy.bits .f32 = 32 ∨ (Rect.block (s := S200000x32) S8000x32.size (cc4_transform_6 i) (hinb4_6 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x32.size a ≤ S512x32.size a
  hwx5_0 : ∀ i : grid5.Coords, EltTy.bits .f32 = 32 ∨ (Rect.block (s := S512x32) S512x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x1.size a ≤ S32x1.size a
  hwx5_3 : ∀ i : grid5.Coords, EltTy.bits .f32 = 32 ∨ (Rect.block (s := S32x1) S32x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x1.size a ≤ S512x1.size a
  hwx5_5 : ∀ i : grid5.Coords, EltTy.bits .f32 = 32 ∨ (Rect.block (s := S512x1) S512x1.size (cc5_transform_5 i) (hinb5_5 i)).WholeWords (EltTy.packing .f32)

variable [Facts₀]

def gather_S200000x3_S6400000x1_S6400000x3_1_0_n_n_0_1_13 : GatherDims S200000x3 S6400000x1 S6400000x3 where
  offsetDims := [1]
  collapsedSliceDims := [0]
  operandBatchingDims := []
  startIndicesBatchingDims := []
  startIndexMap := [0]
  indexVectorDim := 1
  sliceSizes := ![1, 3]
  wf := gather_S200000x3_S6400000x1_S6400000x3_1_0_n_n_0_1_13_wf
def scatter_S200000x3_S6400000x1_S6400000x3_1_0_0_1 : ScatterDims S200000x3 S6400000x1 S6400000x3 where
  updateWindowDims := [1]
  insertedWindowDims := [0]
  scatterDimsToOperandDims := [0]
  indexVectorDim := 1
  wf := scatter_S200000x3_S6400000x1_S6400000x3_1_0_0_1_wf
def dot_S8000x3_S3x32_S8000x32_1_0_0_1_n_n : DotDims S8000x3 S3x32 S8000x32 where
  lhsContracting := [1]
  rhsContracting := [0]
  lhsNonContracting := [0]
  rhsNonContracting := [1]
  lhsBatch := []
  rhsBatch := []
  wf := dot_S8000x3_S3x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def scatter_S512x32_S200000x1_S200000x32_1_0_0_1 : ScatterDims S512x32 S200000x1 S200000x32 where
  updateWindowDims := [1]
  insertedWindowDims := [0]
  scatterDimsToOperandDims := [0]
  indexVectorDim := 1
  wf := scatter_S512x32_S200000x1_S200000x32_1_0_0_1_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S8000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S8000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S8000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S8000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S8000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S32x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S8000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v79) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S8000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v100) S8000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v103) S512x32.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S32x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S512x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S200000x3 : Shape := ⟨2, ![200000, 3]⟩
abbrev S2x6400000 : Shape := ⟨2, ![2, 6400000]⟩
abbrev S200000 : Shape := ⟨1, ![200000]⟩
abbrev S3x32 : Shape := ⟨2, ![3, 32]⟩
abbrev S32 : Shape := ⟨1, ![32]⟩
abbrev S32x32 : Shape := ⟨2, ![32, 32]⟩
abbrev S4x32x32 : Shape := ⟨3, ![4, 32, 32]⟩
abbrev S4x32 : Shape := ⟨2, ![4, 32]⟩
abbrev S32x1 : Shape := ⟨2, ![32, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x3 : Shape := ⟨2, ![6400000, 3]⟩
abbrev S200000x32 : Shape := ⟨2, ![200000, 32]⟩
abbrev S1x32 : Shape := ⟨2, ![1, 32]⟩
abbrev S1x32x32 : Shape := ⟨3, ![1, 32, 32]⟩
abbrev S6400000x32 : Shape := ⟨2, ![6400000, 32]⟩
abbrev S512x32 : Shape := ⟨2, ![512, 32]⟩
abbrev S200000x1 : Shape := ⟨2, ![200000, 1]⟩
abbrev S512x1 : Shape := ⟨2, ![512, 1]⟩
abbrev S1x1 : Shape := ⟨2, ![1, 1]⟩
abbrev S512 : Shape := ⟨1, ![512]⟩

abbrev nBuf : Space → Nat
  | .hbm => 204
  | .vmem => 0
  | .smem => 0
  | _ => 0

abbrev hbmTy0_0 (i : Nat) : BufTy := match i % 128 with
  | 0 => ⟨S200000x3, .f32⟩
  | 1 => ⟨S2x6400000, .i32⟩
  | 2 => ⟨S200000, .i32⟩
  | 3 => ⟨S3x32, .f32⟩
  | 4 => ⟨S32, .f32⟩
  | 5 => ⟨S32x32, .f32⟩
  | 6 => ⟨S32, .f32⟩
  | 7 => ⟨S4x32x32, .f32⟩
  | 8 => ⟨S4x32, .f32⟩
  | 9 => ⟨S4x32x32, .f32⟩
  | 10 => ⟨S4x32, .f32⟩
  | 11 => ⟨S32x32, .f32⟩
  | 12 => ⟨S32, .f32⟩
  | 13 => ⟨S32x1, .f32⟩
  | 14 => ⟨S1, .f32⟩
  | 15 => ⟨S1x6400000, .i32⟩
  | 16 => ⟨S6400000, .i32⟩
  | 17 => ⟨S1x6400000, .i32⟩
  | 18 => ⟨S6400000, .i32⟩
  | 19 => ⟨S_, .i32⟩
  | 20 => ⟨S6400000, .i32⟩
  | 21 => ⟨S6400000, .i1⟩
  | 22 => ⟨S_, .i32⟩
  | 23 => ⟨S6400000, .i32⟩
  | 24 => ⟨S6400000, .i32⟩
  | 25 => ⟨S6400000, .i32⟩
  | 26 => ⟨S6400000x1, .i32⟩
  | 27 => ⟨S6400000x3, .f32⟩
  | 28 => ⟨S_, .f32⟩
  | 29 => ⟨S200000x3, .f32⟩
  | 30 => ⟨S6400000x1, .i32⟩
  | 31 => ⟨S200000x3, .f32⟩
  | 32 => ⟨S200000x3, .f32⟩
  | 33 => ⟨S200000x32, .f32⟩
  | 34 => ⟨S1x32, .f32⟩
  | 35 => ⟨S200000x32, .f32⟩
  | 36 => ⟨S200000x32, .f32⟩
  | 37 => ⟨S_, .f32⟩
  | 38 => ⟨S200000x32, .f32⟩
  | 39 => ⟨S200000x32, .f32⟩
  | 40 => ⟨S200000x32, .f32⟩
  | 41 => ⟨S1x32, .f32⟩
  | 42 => ⟨S200000x32, .f32⟩
  | 43 => ⟨S200000x32, .f32⟩
  | 44 => ⟨S_, .f32⟩
  | 45 => ⟨S200000x32, .f32⟩
  | 46 => ⟨S200000x32, .f32⟩
  | 47 => ⟨S1x32x32, .f32⟩
  | 48 => ⟨S32x32, .f32⟩
  | 49 => ⟨S1x32, .f32⟩
  | 50 => ⟨S32, .f32⟩
  | 51 => ⟨S1x32x32, .f32⟩
  | 52 => ⟨S32x32, .f32⟩
  | 53 => ⟨S1x32, .f32⟩
  | 54 => ⟨S32, .f32⟩
  | 55 => ⟨S_, .i32⟩
  | 56 => ⟨S6400000, .i32⟩
  | 57 => ⟨S6400000, .i1⟩
  | 58 => ⟨S_, .i32⟩
  | 59 => ⟨S6400000, .i32⟩
  | 60 => ⟨S6400000, .i32⟩
  | 61 => ⟨S6400000, .i32⟩
  | 62 => ⟨S6400000x1, .i32⟩
  | 63 => ⟨S6400000x32, .f32⟩
  | 64 => ⟨S_, .f32⟩
  | 65 => ⟨S200000x32, .f32⟩
  | 66 => ⟨S6400000x1, .i32⟩
  | 67 => ⟨S200000x32, .f32⟩
  | 68 => ⟨S200000x32, .f32⟩
  | 69 => ⟨S200000x32, .f32⟩
  | 70 => ⟨S1x32, .f32⟩
  | 71 => ⟨S200000x32, .f32⟩
  | 72 => ⟨S200000x32, .f32⟩
  | 73 => ⟨S_, .f32⟩
  | 74 => ⟨S200000x32, .f32⟩
  | 75 => ⟨S200000x32, .f32⟩
  | 76 => ⟨S200000x32, .f32⟩
  | 77 => ⟨S1x32, .f32⟩
  | 78 => ⟨S200000x32, .f32⟩
  | 79 => ⟨S200000x32, .f32⟩
  | 80 => ⟨S_, .f32⟩
  | 81 => ⟨S200000x32, .f32⟩
  | 82 => ⟨S200000x32, .f32⟩
  | 83 => ⟨S1x32x32, .f32⟩
  | 84 => ⟨S32x32, .f32⟩
  | 85 => ⟨S1x32, .f32⟩
  | 86 => ⟨S32, .f32⟩
  | 87 => ⟨S1x32x32, .f32⟩
  | 88 => ⟨S32x32, .f32⟩
  | 89 => ⟨S1x32, .f32⟩
  | 90 => ⟨S32, .f32⟩
  | 91 => ⟨S_, .i32⟩
  | 92 => ⟨S6400000, .i32⟩
  | 93 => ⟨S6400000, .i1⟩
  | 94 => ⟨S_, .i32⟩
  | 95 => ⟨S6400000, .i32⟩
  | 96 => ⟨S6400000, .i32⟩
  | 97 => ⟨S6400000, .i32⟩
  | 98 => ⟨S6400000x1, .i32⟩
  | 99 => ⟨S6400000x32, .f32⟩
  | 100 => ⟨S_, .f32⟩
  | 101 => ⟨S200000x32, .f32⟩
  | 102 => ⟨S6400000x1, .i32⟩
  | 103 => ⟨S200000x32, .f32⟩
  | 104 => ⟨S200000x32, .f32⟩
  | 105 => ⟨S200000x32, .f32⟩
  | 106 => ⟨S1x32, .f32⟩
  | 107 => ⟨S200000x32, .f32⟩
  | 108 => ⟨S200000x32, .f32⟩
  | 109 => ⟨S_, .f32⟩
  | 110 => ⟨S200000x32, .f32⟩
  | 111 => ⟨S200000x32, .f32⟩
  | 112 => ⟨S200000x32, .f32⟩
  | 113 => ⟨S1x32, .f32⟩
  | 114 => ⟨S200000x32, .f32⟩
  | 115 => ⟨S200000x32, .f32⟩
  | 116 => ⟨S_, .f32⟩
  | 117 => ⟨S200000x32, .f32⟩
  | 118 => ⟨S200000x32, .f32⟩
  | 119 => ⟨S1x32x32, .f32⟩
  | 120 => ⟨S32x32, .f32⟩
  | 121 => ⟨S1x32, .f32⟩
  | 122 => ⟨S32, .f32⟩
  | 123 => ⟨S1x32x32, .f32⟩
  | 124 => ⟨S32x32, .f32⟩
  | 125 => ⟨S1x32, .f32⟩
  | 126 => ⟨S32, .f32⟩
  | 127 => ⟨S_, .i32⟩
  | _ => ⟨S200000x3, .f32⟩

abbrev hbmTy0_1 (i : Nat) : BufTy := match i % 128 with
  | 0 => ⟨S6400000, .i32⟩
  | 1 => ⟨S6400000, .i1⟩
  | 2 => ⟨S_, .i32⟩
  | 3 => ⟨S6400000, .i32⟩
  | 4 => ⟨S6400000, .i32⟩
  | 5 => ⟨S6400000, .i32⟩
  | 6 => ⟨S6400000x1, .i32⟩
  | 7 => ⟨S6400000x32, .f32⟩
  | 8 => ⟨S_, .f32⟩
  | 9 => ⟨S200000x32, .f32⟩
  | 10 => ⟨S6400000x1, .i32⟩
  | 11 => ⟨S200000x32, .f32⟩
  | 12 => ⟨S200000x32, .f32⟩
  | 13 => ⟨S200000x32, .f32⟩
  | 14 => ⟨S1x32, .f32⟩
  | 15 => ⟨S200000x32, .f32⟩
  | 16 => ⟨S200000x32, .f32⟩
  | 17 => ⟨S_, .f32⟩
  | 18 => ⟨S200000x32, .f32⟩
  | 19 => ⟨S200000x32, .f32⟩
  | 20 => ⟨S200000x32, .f32⟩
  | 21 => ⟨S1x32, .f32⟩
  | 22 => ⟨S200000x32, .f32⟩
  | 23 => ⟨S200000x32, .f32⟩
  | 24 => ⟨S_, .f32⟩
  | 25 => ⟨S200000x32, .f32⟩
  | 26 => ⟨S200000x32, .f32⟩
  | 27 => ⟨S1x32x32, .f32⟩
  | 28 => ⟨S32x32, .f32⟩
  | 29 => ⟨S1x32, .f32⟩
  | 30 => ⟨S32, .f32⟩
  | 31 => ⟨S1x32x32, .f32⟩
  | 32 => ⟨S32x32, .f32⟩
  | 33 => ⟨S1x32, .f32⟩
  | 34 => ⟨S32, .f32⟩
  | 35 => ⟨S_, .i32⟩
  | 36 => ⟨S6400000, .i32⟩
  | 37 => ⟨S6400000, .i1⟩
  | 38 => ⟨S_, .i32⟩
  | 39 => ⟨S6400000, .i32⟩
  | 40 => ⟨S6400000, .i32⟩
  | 41 => ⟨S6400000, .i32⟩
  | 42 => ⟨S6400000x1, .i32⟩
  | 43 => ⟨S6400000x32, .f32⟩
  | 44 => ⟨S_, .f32⟩
  | 45 => ⟨S200000x32, .f32⟩
  | 46 => ⟨S6400000x1, .i32⟩
  | 47 => ⟨S200000x32, .f32⟩
  | 48 => ⟨S200000x32, .f32⟩
  | 49 => ⟨S200000x32, .f32⟩
  | 50 => ⟨S1x32, .f32⟩
  | 51 => ⟨S200000x32, .f32⟩
  | 52 => ⟨S200000x32, .f32⟩
  | 53 => ⟨S_, .f32⟩
  | 54 => ⟨S200000x32, .f32⟩
  | 55 => ⟨S200000x32, .f32⟩
  | 56 => ⟨S200000x32, .f32⟩
  | 57 => ⟨S1x32, .f32⟩
  | 58 => ⟨S200000x32, .f32⟩
  | 59 => ⟨S200000x32, .f32⟩
  | 60 => ⟨S_, .f32⟩
  | 61 => ⟨S512x32, .f32⟩
  | 62 => ⟨S200000x1, .i32⟩
  | 63 => ⟨S512x32, .f32⟩
  | 64 => ⟨S512x32, .f32⟩
  | 65 => ⟨S1x32, .f32⟩
  | 66 => ⟨S512x32, .f32⟩
  | 67 => ⟨S512x32, .f32⟩
  | 68 => ⟨S_, .f32⟩
  | 69 => ⟨S512x32, .f32⟩
  | 70 => ⟨S512x32, .f32⟩
  | 71 => ⟨S512x1, .f32⟩
  | 72 => ⟨S1x1, .f32⟩
  | 73 => ⟨S512x1, .f32⟩
  | 74 => ⟨S512x1, .f32⟩
  | 75 => ⟨S512, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_1 : Ref sig .tc := ⟨.hbm, 55, rfl⟩
abbrev main_v33 : Ref sig .tc := ⟨.hbm, 56, rfl⟩
abbrev main_v34 : Ref sig .tc := ⟨.hbm, 57, rfl⟩
abbrev main_c_2 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_cst : Ref sig .tc := ⟨.hbm, 73, rfl⟩
abbrev main_call2_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_cst : Ref sig .tc := ⟨.hbm, 80, rfl⟩
abbrev main_call3_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_4 : Ref sig .tc := ⟨.hbm, 91, rfl⟩
abbrev main_v62 : Ref sig .tc := ⟨.hbm, 92, rfl⟩
abbrev main_v63 : Ref sig .tc := ⟨.hbm, 93, rfl⟩
abbrev main_c_5 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_6 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call4_cst : Ref sig .tc := ⟨.hbm, 109, rfl⟩
abbrev main_call4_v0 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call5_cst : Ref sig .tc := ⟨.hbm, 116, rfl⟩
abbrev main_call5_v0 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_7 : Ref sig .tc := ⟨.hbm, 127, rfl⟩
abbrev main_v91 : Ref sig .tc := ⟨.hbm, 128, rfl⟩
abbrev main_v92 : Ref sig .tc := ⟨.hbm, 129, rfl⟩
abbrev main_c_8 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_9 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call6_cst : Ref sig .tc := ⟨.hbm, 145, rfl⟩
abbrev main_call6_v0 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_call7_cst : Ref sig .tc := ⟨.hbm, 152, rfl⟩
abbrev main_call7_v0 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_10 : Ref sig .tc := ⟨.hbm, 163, rfl⟩
abbrev main_v120 : Ref sig .tc := ⟨.hbm, 164, rfl⟩
abbrev main_v121 : Ref sig .tc := ⟨.hbm, 165, rfl⟩
abbrev main_c_11 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_12 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_call8_cst : Ref sig .tc := ⟨.hbm, 181, rfl⟩
abbrev main_call8_v0 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_13 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_call9_cst : Ref sig .tc := ⟨.hbm, 196, rfl⟩
abbrev main_call9_v0 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x3 : S_.BroadcastsInDim S200000x3 (![] : Fin 0 → Fin S200000x3.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  slices_S4x32x32_S1x32x32_0_0_0 : S4x32x32.Slices ![0, 0, 0] S1x32x32
  shapeCasts_S1x32x32_S32x32 : S1x32x32.ShapeCasts S32x32
  slices_S4x32_S1x32_0_0 : S4x32.Slices ![0, 0] S1x32
  shapeCasts_S1x32_S32 : S1x32.ShapeCasts S32
  slices_S4x32x32_S1x32x32_1_0_0 : S4x32x32.Slices ![1, 0, 0] S1x32x32
  slices_S4x32_S1x32_1_0 : S4x32.Slices ![1, 0] S1x32
  slices_S4x32x32_S1x32x32_2_0_0 : S4x32x32.Slices ![2, 0, 0] S1x32x32
  slices_S4x32_S1x32_2_0 : S4x32.Slices ![2, 0] S1x32
  slices_S4x32x32_S1x32x32_3_0_0 : S4x32x32.Slices ![3, 0, 0] S1x32x32
  slices_S4x32_S1x32_3_0 : S4x32.Slices ![3, 0] S1x32
  bcast_S_S512x32 : S_.BroadcastsInDim S512x32 (![] : Fin 0 → Fin S512x32.rank)
  bcast_S200000_S200000x1_0 : S200000.BroadcastsInDim S200000x1 (![0] : Fin 1 → Fin S200000x1.rank)
  bcast_S1x32_S512x32_0_1 : S1x32.BroadcastsInDim S512x32 (![0, 1] : Fin 2 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  gather_S200000x3_S6400000x1_S6400000x3_1_0_n_n_0_1_13_wf : GatherDims.WF S200000x3 S6400000x1 S6400000x3 [1] [0] [] [0] [] 1 ![1, 3]
  scatter_S200000x3_S6400000x1_S6400000x3_1_0_0_1_wf : ScatterDims.WF S200000x3 S6400000x1 S6400000x3 [1] [0] [0] 1
  dot_S200000x3_S3x32_S200000x32_1_0_0_1_n_n_wf : DotDims.WF S200000x3 S3x32 S200000x32 [1] [0] [0] [1] [] []
  dot_S200000x32_S32x32_S200000x32_1_0_0_1_n_n_wf : DotDims.WF S200000x32 S32x32 S200000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  scatter_S512x32_S200000x1_S200000x32_1_0_0_1_wf : ScatterDims.WF S512x32 S200000x1 S200000x32 [1] [0] [0] 1
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []

variable [Facts₀]

def gather_S200000x3_S6400000x1_S6400000x3_1_0_n_n_0_1_13 : GatherDims S200000x3 S6400000x1 S6400000x3 where
  offsetDims := [1]
  collapsedSliceDims := [0]
  operandBatchingDims := []
  startIndicesBatchingDims := []
  startIndexMap := [0]
  indexVectorDim := 1
  sliceSizes := ![1, 3]
  wf := gather_S200000x3_S6400000x1_S6400000x3_1_0_n_n_0_1_13_wf
def scatter_S200000x3_S6400000x1_S6400000x3_1_0_0_1 : ScatterDims S200000x3 S6400000x1 S6400000x3 where
  updateWindowDims := [1]
  insertedWindowDims := [0]
  scatterDimsToOperandDims := [0]
  indexVectorDim := 1
  wf := scatter_S200000x3_S6400000x1_S6400000x3_1_0_0_1_wf
def dot_S200000x3_S3x32_S200000x32_1_0_0_1_n_n : DotDims S200000x3 S3x32 S200000x32 where
  lhsContracting := [1]
  rhsContracting := [0]
  lhsNonContracting := [0]
  rhsNonContracting := [1]
  lhsBatch := []
  rhsBatch := []
  wf := dot_S200000x3_S3x32_S200000x32_1_0_0_1_n_n_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def scatter_S512x32_S200000x1_S200000x32_1_0_0_1 : ScatterDims S512x32 S200000x1 S200000x32 where
  updateWindowDims := [1]
  insertedWindowDims := [0]
  scatterDimsToOperandDims := [0]
  indexVectorDim := 1
  wf := scatter_S512x32_S200000x1_S200000x32_1_0_0_1_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.KRun.lean ====
/-
  The run of the whole program, with the value of its result.

  The program is a chain of thirteen segments on every TensorCore: seven stretches of host operations and, between
  them, six pipelined regions.  The contents of the core's buffers at each boundary of the chain are known functions
  of the launch memory, the last of them `W13`: the contents after the closing host stretch.  Here the run is taken
  once more through the same chain of segments, and its conclusion is read off the last boundary in full: from any
  launch memory with every counter at zero, every weakly fair execution terminates without a fault, and in every
  final state the result buffer holds what `W13` assigns to it, while each of the fifteen argument arrays holds what
  it held at launch.
-/
import proofs.«179286_j24249385353655_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option backward.isDefEq.respectTransparency.types false in
/-- Every weakly fair run of the program from a memory `m` with zero counters ends, nothing faulting, with the
    result buffer at the contents of the last boundary `W13` and with every argument array as launched.  The final
    thread state holds every unscoped buffer at `W13`; read against the final memory it gives the result buffer
    directly, and each argument through the fact that `W13` leaves that argument at its launch contents. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_v107) = Gen.W13 m ρ c (Proc.devRef .tc main_v107)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v107 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.KRun

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibMlp.lean ====
/-
  A perceptron layer applied to every row of a matrix, at the ideal values.  `lin z W b` is the affine map
  row ↦ row · W + b applied to each row of `z`; `relu y` is the entrywise maximum with zero.  A kernel that multiplies
  a block of rows on the matrix unit (operands narrowed to bf16 on the way in — the identity on extended reals — and
  accumulated into zero), adds a one-row bias repeated down the rows and takes the maximum with a splat of zero, and a
  host program that writes `dot_general`, broadcasts the bias vector along axis 1 and then down the rows and takes
  the maximum with a broadcast scalar zero, both compute these functions.  Entry (r, q) of `lin z W b` depends on
  row r of `z` only, which is what lets a tiling by blocks of rows be read block by block.
-/
import Idealize.ShloMosaic.PureOps.Ideal.Laws
import Idealize.ShloMosaic.Lib.ValueIdx
import Idealize.ShloMosaic.Lib.Pipeline.Value
import Idealize.ShloMosaic.Lib.ValueLayout
import proofs.«179286_j24249385353655_1_alg».proof.Proof.LibMatmul

noncomputable section

open scoped BigOperators

namespace Cert.LibMlp

open Idealize.ShloMosaic Idealize.ShloMosaic.ValueIdx Cert.LibMatmul

/-- The value of the f32 zero word. -/
abbrev Z : EReal := Ideal.ofBits .f32 0x00000000#32

/-- The affine map row ↦ row · W + b on every row of `z`. -/
def lin {R K H : Nat} (z : (⟨2, ![R, K]⟩ : Shape).Idx → EReal) (w : (⟨2, ![K, H]⟩ : Shape).Idx → EReal)
    (b : (⟨1, ![H]⟩ : Shape).Idx → EReal) : (⟨2, ![R, H]⟩ : Shape).Idx → EReal :=
  fun i => MM z w i + b (ix1 (i 1))

/-- The entrywise maximum with zero. -/
def relu {s : Shape} (y : s.Idx → EReal) : s.Idx → EReal := fun i => max (y i) Z

/-- The one row of a one-row matrix, as a vector. -/
def rowOf {H : Nat} (br : (⟨2, ![1, H]⟩ : Shape).Idx → EReal) : (⟨1, ![H]⟩ : Shape).Idx → EReal :=
  fun k => br (ix2 (0 : Fin 1) (k 0))

theorem lin_apply {R K H : Nat} (z : (⟨2, ![R, K]⟩ : Shape).Idx → EReal) (w : (⟨2, ![K, H]⟩ : Shape).Idx → EReal)
    (b : (⟨1, ![H]⟩ : Shape).Idx → EReal) (p : Fin R) (q : Fin H) :
    lin z w b (ix2 p q) = (∑ k : Fin K, z (ix2 p k) * w (ix2 k q)) + b (ix1 q) := rfl

/-- Entry (r, q) of `lin z W b` reads row r of `z` only: two matrices that agree on a row, whatever their numbers
    of rows, give the same entry there. -/
theorem lin_row {R R' K H : Nat} (z : (⟨2, ![R, K]⟩ : Shape).Idx → EReal) (z' : (⟨2, ![R', K]⟩ : Shape).Idx → EReal)
    (w : (⟨2, ![K, H]⟩ : Shape).Idx → EReal) (b : (⟨1, ![H]⟩ : Shape).Idx → EReal) (r : Fin R) (p : Fin R') (q : Fin H)
    (h : ∀ k : Fin K, z (ix2 r k) = z' (ix2 p k)) : lin z w b (ix2 r q) = lin z' w b (ix2 p q) := by
  rw [lin_apply, lin_apply]
  exact congrArg (· + b (ix1 q)) (Finset.sum_congr rfl fun k _ => by rw [h k])

theorem relu_apply {s : Shape} (y : s.Idx → EReal) (i : s.Idx) : relu y i = max (y i) Z := rfl

theorem rowOf_shapeCast {H : Nat} (b : (⟨1, ![H]⟩ : Shape).Idx → EReal) (h : (⟨1, ![H]⟩ : Shape).ShapeCasts ⟨2, ![1, H]⟩) :
    rowOf (shapeCast ⟨2, ![1, H]⟩ b h) = b := by
  funext k
  show shapeCast ⟨2, ![1, H]⟩ b h (ix2 (0 : Fin 1) (k 0)) = b k
  rw [shapeCast_a_1a_apply b h 0 (k 0)]
  exact congrArg b (eq_ix1 k).symm

section Kernel
variable {R K H : Nat} (d : DotDims ⟨2, ![R, K]⟩ ⟨2, ![K, H]⟩ ⟨2, ![R, H]⟩)
  (hlb : d.lhsBatch = []) (hln : d.lhsNonContracting = [0]) (hlc : d.lhsContracting = [1])
  (hrb : d.rhsBatch = []) (hrn : d.rhsNonContracting = [1]) (hrc : d.rhsContracting = [0])

include hlb hln hlc hrb hrn hrc in
/-- The kernel's layer on a block of rows: operands narrowed to bf16, product accumulated into zero, plus a one-row
    bias repeated down the rows. -/
theorem kernel_lin (z : FVec Ideal ⟨2, ![R, K]⟩ .f32) (w : FVec Ideal ⟨2, ![K, H]⟩ .f32) (br : FVec Ideal ⟨2, ![1, H]⟩ .f32)
    (hz : FTy.bf16.bits < FTy.f32.bits) (hw : FTy.bf16.bits < FTy.f32.bits)
    (hb : (⟨2, ![1, H]⟩ : Shape).Broadcasts ⟨2, ![R, H]⟩) :
    addf (matmul d none (truncf .bf16 z hz) (truncf .bf16 w hw) (constant ⟨2, ![R, H]⟩ .f32 0x00000000#32))
      (broadcastTo ⟨2, ![R, H]⟩ br hb) = lin z w (rowOf br) := by
  funext i
  obtain ⟨p, q, rfl⟩ : ∃ (p : Fin R) (q : Fin H), i = ix2 p q := ⟨i 0, i 1, eq_ix2 i⟩
  show FloatOps.matmul d none (truncf .bf16 z hz) (truncf .bf16 w hw) (constant ⟨2, ![R, H]⟩ .f32 0x00000000#32) (ix2 p q)
      + broadcastTo ⟨2, ![R, H]⟩ br hb (ix2 p q) = MM z w (ix2 p q) + br (ix2 (0 : Fin 1) q)
  rw [matmul_zero_eq d hlb hln hlc hrb hrn hrc none (truncf .bf16 z hz) (truncf .bf16 w hw), broadcastTo_1b_ab_apply br hb p q]
  rfl

include hlb hln hlc hrb hrn hrc in
/-- The host's layer: `dot_general`, plus the bias vector broadcast along axis 1 and then down the rows. -/
theorem host_lin (z : FVec Ideal ⟨2, ![R, K]⟩ .f32) (w : FVec Ideal ⟨2, ![K, H]⟩ .f32) (b : FVec Ideal ⟨1, ![H]⟩ .f32)
    (h1 : (⟨1, ![H]⟩ : Shape).BroadcastsInDim ⟨2, ![1, H]⟩ (![1] : Fin 1 → Fin 2))
    (h2 : (⟨2, ![1, H]⟩ : Shape).BroadcastsInDim ⟨2, ![R, H]⟩ (![0, 1] : Fin 2 → Fin 2)) :
    addf (Host.dotGeneral d none z w)
      (broadcastInDim ⟨2, ![R, H]⟩ (![0, 1] : Fin 2 → Fin 2) h2 (broadcastInDim ⟨2, ![1, H]⟩ (![1] : Fin 1 → Fin 2) h1 b)) = lin z w b := by
  funext i
  obtain ⟨p, q, rfl⟩ : ∃ (p : Fin R) (q : Fin H), i = ix2 p q := ⟨i 0, i 1, eq_ix2 i⟩
  show FloatOps.dotGeneral d none _ z w (ix2 p q)
      + broadcastInDim ⟨2, ![R, H]⟩ (![0, 1] : Fin 2 → Fin 2) h2 (broadcastInDim ⟨2, ![1, H]⟩ (![1] : Fin 1 → Fin 2) h1 b) (ix2 p q)
      = MM z w (ix2 p q) + b (ix1 q)
  rw [dotGeneral_eq d hlb hln hlc hrb hrn hrc none _ z w]
  refine congrArg (MM z w (ix2 p q) + ·) ?_
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => show (0 : Nat) = if (1 : Nat) = 1 then 0 else p.val; rfl
    | ⟨1, _⟩ =>
      show q.val = if H = 1 then 0 else q.val
      split
      · have := q.isLt; omega
      · rfl
  · match a with
    | ⟨0, _⟩ =>
      show q.val = if H = 1 then 0 else q.val
      split
      · have := q.isLt; omega
      · rfl

end Kernel

/-- The kernel's maximum with a splat of the zero word. -/
theorem kernel_relu {s : Shape} (y : FVec Ideal s .f32) :
    maximumf y (broadcast s (Scalar.ofBits (F := Ideal) .f32 0x00000000#32)) = relu y := rfl

/-- The host's maximum with the scalar zero broadcast to the shape. -/
theorem host_relu {s : Shape} (y : FVec Ideal s .f32)
    (h : (⟨0, ![]⟩ : Shape).BroadcastsInDim s (![] : Fin 0 → Fin s.rank)) :
    maximumf y (broadcastInDim s (![] : Fin 0 → Fin s.rank) h (constant (F := Ideal) ⟨0, ![]⟩ .f32 0x00000000#32)) = relu y := by
  funext i
  show max (y i) (broadcastInDim s (![] : Fin 0 → Fin s.rank) h (constant (F := Ideal) ⟨0, ![]⟩ .f32 0x00000000#32) i) = max (y i) Z
  rw [broadcastInDim_apply _ h _ i ix0 fun a => a.elim0]
  rfl

end Cert.LibMlp

end
-- ==== Proof.AggDefs.lean ====
/-
  The neighbour sum of a graph layer, as the host computes it: the rows of a feature matrix gathered at the edges'
  source nodes (a negative index wrapped by the node count first) and added into the rows named by the edges'
  target nodes, starting from zero; and the per-graph sum of node rows.  Each layer of the reference computes
  exactly this function of the previous layer's features and of the two rows of the edge list.
-/
import proofs.«179286_j24249385353655_1_alg».proof.Proof.Gen.ReferenceIdeal.Read

noncomputable section

namespace Cert.Gin

open Idealize.ShloMosaic Cert.ReferenceIdeal Cert.ReferenceIdeal.Gen Cert.ReferenceIdeal.Read

/-- Source-node indices made non-negative (an index below zero has the node count added), as a column. -/
def srcCol (s : (⟨S6400000, .i32⟩ : BufTy).Contents (Elt Ideal)) : (⟨S6400000x1, .i32⟩ : BufTy).Contents (Elt Ideal) :=
  broadcastInDim S6400000x1 ![0] bcast_S6400000_S6400000x1_0 (select (cmpi .slt s (broadcastInDim S6400000 ![] bcast_S_S6400000 (constantI S_ 32 0#32))) (addi s (broadcastInDim S6400000 ![] bcast_S_S6400000 (constantI S_ 32 200000#32))) s)

/-- The neighbour sum of a 3-feature matrix: row j is the sum over the edges into j of the source node's row. -/
def agg3 (x : (⟨S200000x3, .f32⟩ : BufTy).Contents (Elt Ideal)) (s d : (⟨S6400000, .i32⟩ : BufTy).Contents (Elt Ideal)) : (⟨S200000x3, .f32⟩ : BufTy).Contents (Elt Ideal) :=
  Host.scatterAdd (F := Ideal) scatter_S200000x3_S6400000x1_S6400000x3_1_0_0_1 (broadcastInDim S200000x3 ![] bcast_S_S200000x3 (constant (F := Ideal) S_ .f32 0x00000000#32)) (broadcastInDim S6400000x1 ![0] bcast_S6400000_S6400000x1_0 d) (Host.gather gather_S200000x3_S6400000x1_S6400000x3_1_0_n_n_0_1_13 x (srcCol s))

/-- The neighbour sum of a 32-feature matrix. -/
def agg32 (h : (⟨S200000x32, .f32⟩ : BufTy).Contents (Elt Ideal)) (s d : (⟨S6400000, .i32⟩ : BufTy).Contents (Elt Ideal)) : (⟨S200000x32, .f32⟩ : BufTy).Contents (Elt Ideal) :=
  Host.scatterAdd (F := Ideal) scatter_S200000x32_S6400000x1_S6400000x32_1_0_0_1 (broadcastInDim S200000x32 ![] bcast_S_S200000x32 (constant (F := Ideal) S_ .f32 0x00000000#32)) (broadcastInDim S6400000x1 ![0] bcast_S6400000_S6400000x1_0 d) (Host.gather gather_S200000x32_S6400000x1_S6400000x32_1_0_n_n_0_1_132 h (srcCol s))

/-- The per-graph sum of node rows: row g is the sum of the rows of the nodes whose graph number is g. -/
def pool (h : (⟨S200000x32, .f32⟩ : BufTy).Contents (Elt Ideal)) (b : (⟨S200000, .i32⟩ : BufTy).Contents (Elt Ideal)) : (⟨S512x32, .f32⟩ : BufTy).Contents (Elt Ideal) :=
  Host.scatterAdd (F := Ideal) scatter_S512x32_S200000x1_S200000x32_1_0_0_1 (broadcastInDim S512x32 ![] bcast_S_S512x32 (constant (F := Ideal) S_ .f32 0x00000000#32)) (broadcastInDim S200000x1 ![0] bcast_S200000_S200000x1_0 b) h

/-! The reference's five neighbour sums and its pooled rows are these functions of the stage before. -/

theorem val13_eq (x0 : (⟨S200000x3, .f32⟩ : BufTy).Contents (Elt Ideal)) (x1 : (⟨S2x6400000, .i32⟩ : BufTy).Contents (Elt Ideal)) :
    val_main_v13 (F := Ideal) x0 x1 = agg3 x0 (val_main_v1 x1) (val_main_v3 x1) := by
  unfold val_main_v13 val_main_v10 val_main_v9 val_main_v8 val_main_v7 val_main_v6 val_main_c_0 val_main_v5 val_main_v4 val_main_c val_main_v12 val_main_v11 val_main_cst agg3 srcCol
  rfl
theorem val42_eq (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) :
    val_main_v42 (F := Ideal) x0 x1 x3 x4 x5 x6 = agg32 (val_main_v24 x0 x1 x3 x4 x5 x6) (val_main_v1 x1) (val_main_v3 x1) := by
  unfold val_main_v42 val_main_v39 val_main_v38 val_main_v37 val_main_v36 val_main_v35 val_main_c_2 val_main_v34 val_main_v33 val_main_c_1 val_main_v41 val_main_v40 val_main_cst_3 agg32 srcCol
  rfl
theorem val71_eq (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v71 (F := Ideal) x0 x1 x3 x4 x5 x6 x7 x8 x9 x10 = agg32 (val_main_v53 x0 x1 x3 x4 x5 x6 x7 x8 x9 x10) (val_main_v1 x1) (val_main_v3 x1) := by
  unfold val_main_v71 val_main_v68 val_main_v67 val_main_v66 val_main_v65 val_main_v64 val_main_c_5 val_main_v63 val_main_v62 val_main_c_4 val_main_v70 val_main_v69 val_main_cst_6 agg32 srcCol
  rfl
theorem val100_eq (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v100 (F := Ideal) x0 x1 x3 x4 x5 x6 x7 x8 x9 x10 = agg32 (val_main_v82 x0 x1 x3 x4 x5 x6 x7 x8 x9 x10) (val_main_v1 x1) (val_main_v3 x1) := by
  unfold val_main_v100 val_main_v97 val_main_v96 val_main_v95 val_main_v94 val_main_v93 val_main_c_8 val_main_v92 val_main_v91 val_main_c_7 val_main_v99 val_main_v98 val_main_cst_9 agg32 srcCol
  rfl
theorem val129_eq (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v129 (F := Ideal) x0 x1 x3 x4 x5 x6 x7 x8 x9 x10 = agg32 (val_main_v111 x0 x1 x3 x4 x5 x6 x7 x8 x9 x10) (val_main_v1 x1) (val_main_v3 x1) := by
  unfold val_main_v129 val_main_v126 val_main_v125 val_main_v124 val_main_v123 val_main_v122 val_main_c_11 val_main_v121 val_main_v120 val_main_c_10 val_main_v128 val_main_v127 val_main_cst_12 agg32 srcCol
  rfl
theorem val142_eq (x0 : (⟨S200000x3, .f32⟩ : BufTy).Contents (Elt Ideal)) (x1 : (⟨S2x6400000, .i32⟩ : BufTy).Contents (Elt Ideal)) (x2 : (⟨S200000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v142 (F := Ideal) x0 x1 x2 x3 x4 x5 x6 x7 x8 x9 x10 = pool (val_main_v139 x0 x1 x3 x4 x5 x6 x7 x8 x9 x10) x2 := by
  unfold val_main_v142 val_main_v141 val_main_v140 val_main_cst_13 pool
  rfl

end Cert.Gin

end
-- ==== Proof.Bridge.lean ====
/-
  The reference's layers as row-wise perceptrons.  Each graph layer of the reference is, index by index, the
  perceptron `relu (lin (relu (lin (h + agg) W₁ b₁)) W₂ b₂)` of the previous features `h` and their neighbour sums
  `agg` (the last layer without the outer maximum), and its head is `lin (relu (lin pooled F₁ c₁)) F₂ c₂`: a host
  `dot_general` is the matrix product, a bias broadcast along axis 1 and then down the rows adds the bias entry of the
  column, and the maximum with a broadcast scalar zero is the entrywise maximum with zero.
-/
import proofs.«179286_j24249385353655_1_alg».proof.Proof.Gen.ReferenceIdeal.Read
import proofs.«179286_j24249385353655_1_alg».proof.Proof.LibMlp

set_option maxRecDepth 16384

noncomputable section

namespace Cert.Gin.Bridge

open Idealize.ShloMosaic Cert.ReferenceIdeal Cert.ReferenceIdeal.Gen Cert.ReferenceIdeal.Read Cert.LibMlp

/-- Layer 0: 3 input features. -/
theorem ref_layer0 (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) :
    val_main_v24 (F := Ideal) x0 x1 x3 x4 x5 x6 = relu (lin (relu (lin (addf x0 (val_main_v13 x0 x1)) x3 x4)) x5 x6) := by
  unfold val_main_v24 val_main_call1_v0 val_main_call1_cst val_main_v23 val_main_v22 val_main_v21 val_main_v20 val_main_v19 val_main_call0_v0 val_main_call0_cst val_main_v18 val_main_v17 val_main_v16 val_main_v15 val_main_v14
  rw [host_lin dot_S200000x3_S3x32_S200000x32_1_0_0_1_n_n rfl rfl rfl rfl rfl rfl, host_relu, host_lin dot_S200000x32_S32x32_S200000x32_1_0_0_1_n_n rfl rfl rfl rfl rfl rfl, host_relu]

/-- Layer 1. -/
theorem ref_layer1 (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v53 (F := Ideal) x0 x1 x3 x4 x5 x6 x7 x8 x9 x10 = relu (lin (relu (lin (addf (val_main_v24 x0 x1 x3 x4 x5 x6) (val_main_v42 x0 x1 x3 x4 x5 x6)) (val_main_v26 x7) (val_main_v28 x8))) (val_main_v30 x9) (val_main_v32 x10)) := by
  unfold val_main_v53 val_main_call3_v0 val_main_call3_cst val_main_v52 val_main_v51 val_main_v50 val_main_v49 val_main_v48 val_main_call2_v0 val_main_call2_cst val_main_v47 val_main_v46 val_main_v45 val_main_v44 val_main_v43
  rw [host_lin dot_S200000x32_S32x32_S200000x32_1_0_0_1_n_n rfl rfl rfl rfl rfl rfl, host_relu, host_lin dot_S200000x32_S32x32_S200000x32_1_0_0_1_n_n rfl rfl rfl rfl rfl rfl, host_relu]

/-- Layer 2. -/
theorem ref_layer2 (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v82 (F := Ideal) x0 x1 x3 x4 x5 x6 x7 x8 x9 x10 = relu (lin (relu (lin (addf (val_main_v53 x0 x1 x3 x4 x5 x6 x7 x8 x9 x10) (val_main_v71 x0 x1 x3 x4 x5 x6 x7 x8 x9 x10)) (val_main_v55 x7) (val_main_v57 x8))) (val_main_v59 x9) (val_main_v61 x10)) := by
  unfold val_main_v82 val_main_call5_v0 val_main_call5_cst val_main_v81 val_main_v80 val_main_v79 val_main_v78 val_main_v77 val_main_call4_v0 val_main_call4_cst val_main_v76 val_main_v75 val_main_v74 val_main_v73 val_main_v72
  rw [host_lin dot_S200000x32_S32x32_S200000x32_1_0_0_1_n_n rfl rfl rfl rfl rfl rfl, host_relu, host_lin dot_S200000x32_S32x32_S200000x32_1_0_0_1_n_n rfl rfl rfl rfl rfl rfl, host_relu]

/-- Layer 3. -/
theorem ref_layer3 (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v111 (F := Ideal) x0 x1 x3 x4 x5 x6 x7 x8 x9 x10 = relu (lin (relu (lin (addf (val_main_v82 x0 x1 x3 x4 x5 x6 x7 x8 x9 x10) (val_main_v100 x0 x1 x3 x4 x5 x6 x7 x8 x9 x10)) (val_main_v84 x7) (val_main_v86 x8))) (val_main_v88 x9) (val_main_v90 x10)) := by
  unfold val_main_v111 val_main_call7_v0 val_main_call7_cst val_main_v110 val_main_v109 val_main_v108 val_main_v107 val_main_v106 val_main_call6_v0 val_main_call6_cst val_main_v105 val_main_v104 val_main_v103 val_main_v102 val_main_v101
  rw [host_lin dot_S200000x32_S32x32_S200000x32_1_0_0_1_n_n rfl rfl rfl rfl rfl rfl, host_relu, host_lin dot_S200000x32_S32x32_S200000x32_1_0_0_1_n_n rfl rfl rfl rfl rfl rfl, host_relu]

/-- Layer 4: no maximum after the second affine map. -/
theorem ref_layer4 (x0 : (⟨S200000x3, .f32⟩ : BufTy).Contents (Elt Ideal)) (x1 : (⟨S2x6400000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) :
    val_main_v139 (F := Ideal) x0 x1 x3 x4 x5 x6 x7 x8 x9 x10 = lin (relu (lin (addf (val_main_v111 x0 x1 x3 x4 x5 x6 x7 x8 x9 x10) (val_main_v129 x0 x1 x3 x4 x5 x6 x7 x8 x9 x10)) (val_main_v113 x7) (val_main_v115 x8))) (val_main_v117 x9) (val_main_v119 x10) := by
  unfold val_main_v139 val_main_v138 val_main_v137 val_main_v136 val_main_v135 val_main_call8_v0 val_main_call8_cst val_main_v134 val_main_v133 val_main_v132 val_main_v131 val_main_v130
  rw [host_lin dot_S200000x32_S32x32_S200000x32_1_0_0_1_n_n rfl rfl rfl rfl rfl rfl, host_relu, host_lin dot_S200000x32_S32x32_S200000x32_1_0_0_1_n_n rfl rfl rfl rfl rfl rfl]

/-- The head on the pooled rows. -/
theorem ref_head (x0 : (⟨S200000x3, .f32⟩ : BufTy).Contents (Elt Ideal)) (x1 : (⟨S2x6400000, .i32⟩ : BufTy).Contents (Elt Ideal)) (x2 : (⟨S200000, .i32⟩ : BufTy).Contents (Elt Ideal)) (x3 : (⟨S3x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S4x32x32, .f32⟩ : BufTy).Contents (Elt Ideal)) (x8 : (⟨S4x32, .f32⟩ : BufTy).Contents (Elt Ideal)) (x9 : (⟨S4x32x32, .f32⟩ : BufTy).Contents (Elt Ideal)) (x10 : (⟨S4x32, .f32⟩ : BufTy).Contents (Elt Ideal)) (x11 : (⟨S32x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal)) :
    val_main_v151 (F := Ideal) x0 x1 x2 x3 x4 x5 x6 x7 x8 x9 x10 x11 x12 x13 x14 = lin (relu (lin (val_main_v142 x0 x1 x2 x3 x4 x5 x6 x7 x8 x9 x10) x11 x12)) x13 x14 := by
  unfold val_main_v151 val_main_v150 val_main_v149 val_main_v148 val_main_v147 val_main_call9_v0 val_main_call9_cst val_main_v146 val_main_v145 val_main_v144 val_main_v143
  rw [host_lin dot_S512x32_S32x32_S512x32_1_0_0_1_n_n rfl rfl rfl rfl rfl rfl, host_relu, host_lin dot_S512x32_S32x1_S512x1_1_0_0_1_n_n rfl rfl rfl rfl rfl rfl]

end Cert.Gin.Bridge

end
-- ==== Proof.KHost.lean ====
/-
  The host operations between the six fused regions, read back over an arbitrary valuation.

  The program's entry function is seven stretches of host operations separated by the fused regions.  Each
  stretch is a short straight line of pure operations; what a buffer holds after the stretch is therefore a
  closed term of what the buffers held before it.  This module records those terms, stretch by stretch, for the
  buffers the regions read next, and records that every other buffer a later step depends on is left as it was.

  * Before the first region the two rows of the edge list are sliced out and flattened (source nodes, target
    nodes); a source index below zero has the node count added; the rows of the input features are gathered at
    the source nodes and added, starting from zero, into the rows named by the target nodes; and the two bias
    vectors of the first layer are reshaped to one row each.
  * Before each of the next four regions the layer's two weight matrices and two bias vectors are sliced out of
    the stacked weights and biases (slice j of four), the matrices flattened to 32 by 32 and the biases reshaped
    to one row, and the neighbour sum of the previous layer's features is formed by the same gather and
    scatter-add over the same edge list.
  * Before the last region the node rows are added per graph, starting from zero, and the two bias vectors of
    the output layers are reshaped to one row.
  * After the last region the single output column is flattened to a vector.
-/
import proofs.«179286_j24249385353655_1_alg».proof.Proof.Gen.KernelIdeal.Frame
import proofs.«179286_j24249385353655_1_alg».proof.Proof.Gen.ReferenceIdeal.Read
import proofs.«179286_j24249385353655_1_alg».proof.Proof.AggDefs

noncomputable section

namespace Cert.KernelIdeal.KHost

open Idealize.ShloMosaic Idealize.ShloMosaic.TcCoe Idealize.SL.Sem
open Cert.KernelIdeal Cert.KernelIdeal.Gen

/-! ## Before the first region -/

/-- The flattened first row of the edge list: the source nodes. -/
theorem host0_src (W : Valuation τ sig (Elt Ideal)) :
    StableHlo.after (hostOps0 (F := Ideal)) W (Proc.devRef .tc main_v1) =
      Cert.ReferenceIdeal.Read.val_main_v1 (F := Ideal) (W (Proc.devRef .tc main_arg1)) := by
  after_results
  rfl
/-- The flattened second row of the edge list: the target nodes. -/
theorem host0_dst (W : Valuation τ sig (Elt Ideal)) :
    StableHlo.after (hostOps0 (F := Ideal)) W (Proc.devRef .tc main_v3) =
      Cert.ReferenceIdeal.Read.val_main_v3 (F := Ideal) (W (Proc.devRef .tc main_arg1)) := by
  after_results
  rfl
/-- The neighbour sum of the input features over the edge list. -/
theorem host0_agg (W : Valuation τ sig (Elt Ideal)) :
    StableHlo.after (hostOps0 (F := Ideal)) W (Proc.devRef .tc main_v13) =
      Cert.Gin.agg3 (W (Proc.devRef .tc main_arg0)) (Cert.ReferenceIdeal.Read.val_main_v1 (F := Ideal) (W (Proc.devRef .tc main_arg1))) (Cert.ReferenceIdeal.Read.val_main_v3 (F := Ideal) (W (Proc.devRef .tc main_arg1))) := by
  after_results
  unfold Cert.Gin.agg3 Cert.Gin.srcCol Cert.ReferenceIdeal.Read.val_main_v1 Cert.ReferenceIdeal.Read.val_main_v0 Cert.ReferenceIdeal.Read.val_main_v3 Cert.ReferenceIdeal.Read.val_main_v2
  rfl
/-- The first bias vector of the first layer, as one row. -/
theorem host0_b1 (W : Valuation τ sig (Elt Ideal)) :
    StableHlo.after (hostOps0 (F := Ideal)) W (Proc.devRef .tc main_v14) =
      shapeCast S1x32 (W (Proc.devRef .tc main_arg4)) shapeCasts_S32_S1x32 := by
  after_results
  rfl
/-- The second bias vector of the first layer, as one row. -/
theorem host0_b2 (W : Valuation τ sig (Elt Ideal)) :
    StableHlo.after (hostOps0 (F := Ideal)) W (Proc.devRef .tc main_v15) =
      shapeCast S1x32 (W (Proc.devRef .tc main_arg6)) shapeCasts_S32_S1x32 := by
  after_results
  rfl

/-! No argument of the entry function is written before the first region. -/

theorem host0_arg0 (W : Valuation τ sig (Elt Ideal)) :
    StableHlo.after (hostOps0 (F := Ideal)) W (Proc.devRef .tc main_arg0) =
      W (Proc.devRef .tc main_arg0) := by
  after_results
theorem host0_arg1 (W : Valuation τ sig (Elt Ideal)) :
    StableHlo.after (hostOps0 (F := Ideal)) W (Proc.devRef .tc main_arg1) =
      W (Proc.devRef .tc main_arg1) := by
  after_results
theorem host0_arg2 (W : Valuation τ sig (Elt Ideal)) :
    StableHlo.after (hostOps0 (F := Ideal)) W (Proc.devRef .tc main_arg2) =
      W (Proc.devRef .tc main_arg2) := by
  after_results
theorem host0_arg3 (W : Valuation τ sig (Elt Ideal)) :
    StableHlo.after (hostOps0 (F := Ideal)) W (Proc.devRef .tc main_arg3) =
      W (Proc.devRef .tc main_arg3) := by
  after_results
theorem host0_arg4 (W : Valuation τ sig (Elt Ideal)) :
    StableHlo.after (hostOps0 (F := Ideal)) W (Proc.devRef .tc main_arg4) =
      W (Proc.devRef .tc main_arg4) := by
  after_results
theorem host0_arg5 (W : Valuation τ sig (Elt Ideal)) :
    StableHlo.after (hostOps0 (F := Ideal)) W (Proc.devRef .tc main_arg5) =
      W (Proc.devRef .tc main_arg5) := by
  after_results
theorem host0_arg6 (W : Valuation τ sig (Elt Ideal)) :
    StableHlo.after (hostOps0 (F := Ideal)) W (Proc.devRef .tc main_arg6) =
      W (Proc.devRef .tc main_arg6) := by
  after_results
theorem host0_arg7 (W : Valuation τ sig (Elt Ideal)) :
    StableHlo.after (hostOps0 (F := Ideal)) W (Proc.devRef .tc main_arg7) =
      W (Proc.devRef .tc main_arg7) := by
  after_results
theorem host0_arg8 (W : Valuation τ sig (Elt Ideal)) :
    StableHlo.after (hostOps0 (F := Ideal)) W (Proc.devRef .tc main_arg8) =
      W (Proc.devRef .tc main_arg8) := by
  after_results
theorem host0_arg9 (W : Valuation τ sig (Elt Ideal)) :
    StableHlo.after (hostOps0 (F := Ideal)) W (Proc.devRef .tc main_arg9) =
      W (Proc.devRef .tc main_arg9) := by
  after_results
theorem host0_arg10 (W : Valuation τ sig (Elt Ideal)) :
    StableHlo.after (hostOps0 (F := Ideal)) W (Proc.devRef .tc main_arg10) =
      W (Proc.devRef .tc main_arg10) := by
  after_results
theorem host0_arg11 (W : Valuation τ sig (Elt Ideal)) :
    StableHlo.after (hostOps0 (F := Ideal)) W (Proc.devRef .tc main_arg11) =
      W (Proc.devRef .tc main_arg11) := by
  after_results
theorem host0_arg12 (W : Valuation τ sig (Elt Ideal)) :
    StableHlo.after (hostOps0 (F := Ideal)) W (Proc.devRef .tc main_arg12) =
      W (Proc.devRef .tc main_arg12) := by
  after_results
theorem host0_arg13 (W : Valuation τ sig (Elt Ideal)) :
    StableHlo.after (hostOps0 (F := Ideal)) W (Proc.devRef .tc main_arg13) =
      W (Proc.devRef .tc main_arg13) := by
  after_results
theorem host0_arg14 (W : Valuation τ sig (Elt Ideal)) :
    StableHlo.after (hostOps0 (F := Ideal)) W (Proc.devRef .tc main_arg14) =
      W (Proc.devRef .tc main_arg14) := by
  after_results

/-- The buffers every later stretch still reads and no stretch between two regions writes: the two flattened rows of
    the edge list, the graph numbers, the stacked weights and biases, and the output layers' weights and biases. -/
def carry : List (Ref sig .tc) :=
  [main_v1, main_v3, main_arg2, main_arg7, main_arg8, main_arg9, main_arg10, main_arg11, main_arg12, main_arg13, main_arg14]

/-! ## Before the second region -/

/-- The neighbour sum of the previous layer's features over the edge list. -/
theorem host1_agg (W : Valuation τ sig (Elt Ideal)) :
    StableHlo.after (hostOps1 (F := Ideal)) W (Proc.devRef .tc main_v34) =
      Cert.Gin.agg32 (W (Proc.devRef .tc main_v16)) (W (Proc.devRef .tc main_v1)) (W (Proc.devRef .tc main_v3)) := by
  after_results_simp
  unfold Cert.Gin.agg32 Cert.Gin.srcCol
  rfl
/-- The layer's first weight matrix: slice 0 of the stacked first weights, flattened. -/
theorem host1_w1 (W : Valuation τ sig (Elt Ideal)) :
    StableHlo.after (hostOps1 (F := Ideal)) W (Proc.devRef .tc main_v18) =
      Cert.ReferenceIdeal.Read.val_main_v26 (F := Ideal) (W (Proc.devRef .tc main_arg7)) := by
  after_results
  rfl
/-- The layer's first bias vector: slice 0 of the stacked first biases, as one row. -/
theorem host1_b1 (W : Valuation τ sig (Elt Ideal)) :
    StableHlo.after (hostOps1 (F := Ideal)) W (Proc.devRef .tc main_v35) =
      shapeCast S1x32 (Cert.ReferenceIdeal.Read.val_main_v28 (F := Ideal) (W (Proc.devRef .tc main_arg8))) shapeCasts_S32_S1x32 := by
  after_results
  rfl
/-- The layer's second weight matrix: slice 0 of the stacked second weights, flattened. -/
theorem host1_w2 (W : Valuation τ sig (Elt Ideal)) :
    StableHlo.after (hostOps1 (F := Ideal)) W (Proc.devRef .tc main_v22) =
      Cert.ReferenceIdeal.Read.val_main_v30 (F := Ideal) (W (Proc.devRef .tc main_arg9)) := by
  after_results
  rfl
/-- The layer's second bias vector: slice 0 of the stacked second biases, as one row. -/
theorem host1_b2 (W : Valuation τ sig (Elt Ideal)) :
    StableHlo.after (hostOps1 (F := Ideal)) W (Proc.devRef .tc main_v36) =
      shapeCast S1x32 (Cert.ReferenceIdeal.Read.val_main_v32 (F := Ideal) (W (Proc.devRef .tc main_arg10))) shapeCasts_S32_S1x32 := by
  after_results
  rfl
/-- The previous layer's features are read, not written. -/
theorem host1_hp (W : Valuation τ sig (Elt Ideal)) :
    StableHlo.after (hostOps1 (F := Ideal)) W (Proc.devRef .tc main_v16) =
      W (Proc.devRef .tc main_v16) := by
  after_results
/-- The carried buffers are left as they were. -/
theorem host1_keep (W : Valuation τ sig (Elt Ideal)) :
    ∀ b ∈ carry, StableHlo.after (hostOps1 (F := Ideal)) W (Proc.devRef .tc b) = W (Proc.devRef .tc b) := by
  intro b hb
  simp only [carry, List.mem_cons, List.mem_nil_iff, or_false] at hb
  rcases hb with rfl | rfl | rfl | rfl | rfl | rfl | rfl | rfl | rfl | rfl | rfl <;> after_results_simp

/-! ## Before the third region -/

/-- The neighbour sum of the previous layer's features over the edge list. -/
theorem host2_agg (W : Valuation τ sig (Elt Ideal)) :
    StableHlo.after (hostOps2 (F := Ideal)) W (Proc.devRef .tc main_v55) =
      Cert.Gin.agg32 (W (Proc.devRef .tc main_v37)) (W (Proc.devRef .tc main_v1)) (W (Proc.devRef .tc main_v3)) := by
  after_results_simp
  unfold Cert.Gin.agg32 Cert.Gin.srcCol
  rfl
/-- The layer's first weight matrix: slice 1 of the stacked first weights, flattened. -/
theorem host2_w1 (W : Valuation τ sig (Elt Ideal)) :
    StableHlo.after (hostOps2 (F := Ideal)) W (Proc.devRef .tc main_v39) =
      Cert.ReferenceIdeal.Read.val_main_v55 (F := Ideal) (W (Proc.devRef .tc main_arg7)) := by
  after_results
  rfl
/-- The layer's first bias vector: slice 1 of the stacked first biases, as one row. -/
theorem host2_b1 (W : Valuation τ sig (Elt Ideal)) :
    StableHlo.after (hostOps2 (F := Ideal)) W (Proc.devRef .tc main_v56) =
      shapeCast S1x32 (Cert.ReferenceIdeal.Read.val_main_v57 (F := Ideal) (W (Proc.devRef .tc main_arg8))) shapeCasts_S32_S1x32 := by
  after_results
  rfl
/-- The layer's second weight matrix: slice 1 of the stacked second weights, flattened. -/
theorem host2_w2 (W : Valuation τ sig (Elt Ideal)) :
    StableHlo.after (hostOps2 (F := Ideal)) W (Proc.devRef .tc main_v43) =
      Cert.ReferenceIdeal.Read.val_main_v59 (F := Ideal) (W (Proc.devRef .tc main_arg9)) := by
  after_results
  rfl
/-- The layer's second bias vector: slice 1 of the stacked second biases, as one row. -/
theorem host2_b2 (W : Valuation τ sig (Elt Ideal)) :
    StableHlo.after (hostOps2 (F := Ideal)) W (Proc.devRef .tc main_v57) =
      shapeCast S1x32 (Cert.ReferenceIdeal.Read.val_main_v61 (F := Ideal) (W (Proc.devRef .tc main_arg10))) shapeCasts_S32_S1x32 := by
  after_results
  rfl
/-- The previous layer's features are read, not written. -/
theorem host2_hp (W : Valuation τ sig (Elt Ideal)) :
    StableHlo.after (hostOps2 (F := Ideal)) W (Proc.devRef .tc main_v37) =
      W (Proc.devRef .tc main_v37) := by
  after_results
/-- The carried buffers are left as they were. -/
theorem host2_keep (W : Valuation τ sig (Elt Ideal)) :
    ∀ b ∈ carry, StableHlo.after (hostOps2 (F := Ideal)) W (Proc.devRef .tc b) = W (Proc.devRef .tc b) := by
  intro b hb
  simp only [carry, List.mem_cons, List.mem_nil_iff, or_false] at hb
  rcases hb with rfl | rfl | rfl | rfl | rfl | rfl | rfl | rfl | rfl | rfl | rfl <;> after_results_simp

/-! ## Before the fourth region -/

/-- The neighbour sum of the previous layer's features over the edge list. -/
theorem host3_agg (W : Valuation τ sig (Elt Ideal)) :
    StableHlo.after (hostOps3 (F := Ideal)) W (Proc.devRef .tc main_v76) =
      Cert.Gin.agg32 (W (Proc.devRef .tc main_v58)) (W (Proc.devRef .tc main_v1)) (W (Proc.devRef .tc main_v3)) := by
  after_results_simp
  unfold Cert.Gin.agg32 Cert.Gin.srcCol
  rfl
/-- The layer's first weight matrix: slice 2 of the stacked first weights, flattened. -/
theorem host3_w1 (W : Valuation τ sig (Elt Ideal)) :
    StableHlo.after (hostOps3 (F := Ideal)) W (Proc.devRef .tc main_v60) =
      Cert.ReferenceIdeal.Read.val_main_v84 (F := Ideal) (W (Proc.devRef .tc main_arg7)) := by
  after_results
  rfl
/-- The layer's first bias vector: slice 2 of the stacked first biases, as one row. -/
theorem host3_b1 (W : Valuation τ sig (Elt Ideal)) :
    StableHlo.after (hostOps3 (F := Ideal)) W (Proc.devRef .tc main_v77) =
      shapeCast S1x32 (Cert.ReferenceIdeal.Read.val_main_v86 (F := Ideal) (W (Proc.devRef .tc main_arg8))) shapeCasts_S32_S1x32 := by
  after_results
  rfl
/-- The layer's second weight matrix: slice 2 of the stacked second weights, flattened. -/
theorem host3_w2 (W : Valuation τ sig (Elt Ideal)) :
    StableHlo.after (hostOps3 (F := Ideal)) W (Proc.devRef .tc main_v64) =
      Cert.ReferenceIdeal.Read.val_main_v88 (F := Ideal) (W (Proc.devRef .tc main_arg9)) := by
  after_results
  rfl
/-- The layer's second bias vector: slice 2 of the stacked second biases, as one row. -/
theorem host3_b2 (W : Valuation τ sig (Elt Ideal)) :
    StableHlo.after (hostOps3 (F := Ideal)) W (Proc.devRef .tc main_v78) =
      shapeCast S1x32 (Cert.ReferenceIdeal.Read.val_main_v90 (F := Ideal) (W (Proc.devRef .tc main_arg10))) shapeCasts_S32_S1x32 := by
  after_results
  rfl
/-- The previous layer's features are read, not written. -/
theorem host3_hp (W : Valuation τ sig (Elt Ideal)) :
    StableHlo.after (hostOps3 (F := Ideal)) W (Proc.devRef .tc main_v58) =
      W (Proc.devRef .tc main_v58) := by
  after_results
/-- The carried buffers are left as they were. -/
theorem host3_keep (W : Valuation τ sig (Elt Ideal)) :
    ∀ b ∈ carry, StableHlo.after (hostOps3 (F := Ideal)) W (Proc.devRef .tc b) = W (Proc.devRef .tc b) := by
  intro b hb
  simp only [carry, List.mem_cons, List.mem_nil_iff, or_false] at hb
  rcases hb with rfl | rfl | rfl | rfl | rfl | rfl | rfl | rfl | rfl | rfl | rfl <;> after_results_simp

/-! ## Before the fifth region -/

/-- The neighbour sum of the previous layer's features over the edge list. -/
theorem host4_agg (W : Valuation τ sig (Elt Ideal)) :
    StableHlo.after (hostOps4 (F := Ideal)) W (Proc.devRef .tc main_v97) =
      Cert.Gin.agg32 (W (Proc.devRef .tc main_v79)) (W (Proc.devRef .tc main_v1)) (W (Proc.devRef .tc main_v3)) := by
  after_results_simp
  unfold Cert.Gin.agg32 Cert.Gin.srcCol
  rfl
/-- The layer's first weight matrix: slice 3 of the stacked first weights, flattened. -/
theorem host4_w1 (W : Valuation τ sig (Elt Ideal)) :
    StableHlo.after (hostOps4 (F := Ideal)) W (Proc.devRef .tc main_v81) =
      Cert.ReferenceIdeal.Read.val_main_v113 (F := Ideal) (W (Proc.devRef .tc main_arg7)) := by
  after_results
  rfl
/-- The layer's first bias vector: slice 3 of the stacked first biases, as one row. -/
theorem host4_b1 (W : Valuation τ sig (Elt Ideal)) :
    StableHlo.after (hostOps4 (F := Ideal)) W (Proc.devRef .tc main_v98) =
      shapeCast S1x32 (Cert.ReferenceIdeal.Read.val_main_v115 (F := Ideal) (W (Proc.devRef .tc main_arg8))) shapeCasts_S32_S1x32 := by
  after_results
  rfl
/-- The layer's second weight matrix: slice 3 of the stacked second weights, flattened. -/
theorem host4_w2 (W : Valuation τ sig (Elt Ideal)) :
    StableHlo.after (hostOps4 (F := Ideal)) W (Proc.devRef .tc main_v85) =
      Cert.ReferenceIdeal.Read.val_main_v117 (F := Ideal) (W (Proc.devRef .tc main_arg9)) := by
  after_results
  rfl
/-- The layer's second bias vector: slice 3 of the stacked second biases, as one row. -/
theorem host4_b2 (W : Valuation τ sig (Elt Ideal)) :
    StableHlo.after (hostOps4 (F := Ideal)) W (Proc.devRef .tc main_v99) =
      shapeCast S1x32 (Cert.ReferenceIdeal.Read.val_main_v119 (F := Ideal) (W (Proc.devRef .tc main_arg10))) shapeCasts_S32_S1x32 := by
  after_results
  rfl
/-- The previous layer's features are read, not written. -/
theorem host4_hp (W : Valuation τ sig (Elt Ideal)) :
    StableHlo.after (hostOps4 (F := Ideal)) W (Proc.devRef .tc main_v79) =
      W (Proc.devRef .tc main_v79) := by
  after_results
/-- The carried buffers are left as they were. -/
theorem host4_keep (W : Valuation τ sig (Elt Ideal)) :
    ∀ b ∈ carry, StableHlo.after (hostOps4 (F := Ideal)) W (Proc.devRef .tc b) = W (Proc.devRef .tc b) := by
  intro b hb
  simp only [carry, List.mem_cons, List.mem_nil_iff, or_false] at hb
  rcases hb with rfl | rfl | rfl | rfl | rfl | rfl | rfl | rfl | rfl | rfl | rfl <;> after_results_simp

/-! ## Before the last region -/

/-- The per-graph sum of the last layer's node rows. -/
theorem host5_pool (W : Valuation τ sig (Elt Ideal)) :
    StableHlo.after (hostOps5 (F := Ideal)) W (Proc.devRef .tc main_v103) =
      Cert.Gin.pool (W (Proc.devRef .tc main_v100)) (W (Proc.devRef .tc main_arg2)) := by
  after_results
  unfold Cert.Gin.pool
  rfl
/-- The first output layer's bias vector, as one row. -/
theorem host5_b1 (W : Valuation τ sig (Elt Ideal)) :
    StableHlo.after (hostOps5 (F := Ideal)) W (Proc.devRef .tc main_v104) =
      shapeCast S1x32 (W (Proc.devRef .tc main_arg12)) shapeCasts_S32_S1x32 := by
  after_results
  rfl
/-- The second output layer's bias, as one row of one entry. -/
theorem host5_b2 (W : Valuation τ sig (Elt Ideal)) :
    StableHlo.after (hostOps5 (F := Ideal)) W (Proc.devRef .tc main_v105) =
      shapeCast S1x1 (W (Proc.devRef .tc main_arg14)) shapeCasts_S1_S1x1 := by
  after_results
  rfl
/-- The output layers' weight matrices are read, not written. -/
theorem host5_arg11 (W : Valuation τ sig (Elt Ideal)) :
    StableHlo.after (hostOps5 (F := Ideal)) W (Proc.devRef .tc main_arg11) =
      W (Proc.devRef .tc main_arg11) := by
  after_results
theorem host5_arg13 (W : Valuation τ sig (Elt Ideal)) :
    StableHlo.after (hostOps5 (F := Ideal)) W (Proc.devRef .tc main_arg13) =
      W (Proc.devRef .tc main_arg13) := by
  after_results

/-! ## After the last region -/

/-- The single output column, flattened to a vector. -/
theorem host6_out (W : Valuation τ sig (Elt Ideal)) :
    StableHlo.after (hostOps6 (F := Ideal)) W (Proc.devRef .tc main_v107) =
      shapeCast S512 (W (Proc.devRef .tc main_v106)) shapeCasts_S512x1_S512 := by
  after_results
  rfl

end Cert.KernelIdeal.KHost

end
-- ==== Proof.Region0.lean ====
/-
  Region 0 of the kernel, read as one function of the arrays it finds.  The region walks the 200000 rows of the
  feature matrix in 25 blocks of 8000 rows; at each block the body adds the block of neighbour sums to the block of
  features, applies the first affine map and the maximum with zero, then the second affine map and the maximum with zero again, with
  the two weight matrices and the two one-row biases read whole at every block.  An entry of a row-wise perceptron
  depends on its own row of the input only, so the block a grid point writes back is that block of the perceptron
  applied to the whole matrices; the 25 blocks tile the rows, hence the array the region leaves is the perceptron of
  the whole matrices.
-/
import proofs.«179286_j24249385353655_1_alg».proof.Proof.Gen.KernelIdeal.Frame
import proofs.«179286_j24249385353655_1_alg».proof.Proof.LibMlp

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibMlp

variable (V : (c : Dev nD) → (b : Ref sig .tc) → Buf (Elt Ideal) ((c : Thread nD τ).loc b))

theorem hz : (![0, 0] : Fin 2 → Nat) = fun _ => 0 := funext fun a => by fin_cases a <;> rfl

/-- The layer on matrices with any number of rows: features plus neighbour sums, through the two affine maps. -/
def layer {R : Nat} (h agg : (⟨2, ![R, 3]⟩ : Shape).Idx → EReal) (w1 : (⟨2, ![3, 32]⟩ : Shape).Idx → EReal)
    (b1 : (⟨2, ![1, 32]⟩ : Shape).Idx → EReal) (w2 : (⟨2, ![32, 32]⟩ : Shape).Idx → EReal) (b2 : (⟨2, ![1, 32]⟩ : Shape).Idx → EReal) :
    (⟨2, ![R, 32]⟩ : Shape).Idx → EReal :=
  relu (lin (relu (lin (addf (F := Ideal) (φ := .f32) h agg) w1 (rowOf b1))) w2 (rowOf b2))

/-- The body's stored value is the layer on the loaded blocks. -/
theorem pay_eq (x0 x1 : Vec Ideal S8000x3 .f32) (x2 : Vec Ideal S3x32 .f32) (x3 : Vec Ideal S1x32 .f32)
    (x4 : Vec Ideal S32x32 .f32) (x5 : Vec Ideal S1x32 .f32) :
    k0_pay1 (F := Ideal) x0 x1 x2 x3 x4 x5 = layer x0 x1 x2 x3 x4 x5 := by
  unfold k0_pay1 layer
  simp only [shapeCast_self]
  rw [kernel_lin dot_S8000x3_S3x32_S8000x32_1_0_0_1_n_n rfl rfl rfl rfl rfl rfl, kernel_relu,
    kernel_lin dot_S8000x32_S32x32_S8000x32_1_0_0_1_n_n rfl rfl rfl rfl rfl rfl, kernel_relu]

/-- The printed index maps, decided over the 25 grid points: the two row-blocked inputs move with the output's block,
    the four small operands stay at block (0, 0), and the output's block number is the grid point. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

/-- Every block of rows is some grid point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- What grid point `t` writes back is block `t` of the layer applied to the whole arrays. -/
theorem flushed_eq (c : Dev nD) (t : Fin cfg0.N) :
    (dat0 (F := Ideal) V c).flushed 6 t = ((cfg0.win 6).blk t).view.read (Elt Ideal)
      (layer (V c main_arg0) (V c main_v13) (V c main_arg3) (V c main_v14) (V c main_arg5) (V c main_v15)) := by
  show (cfg0.win 6).cut (grid0.coords t) ((dat0 (F := Ideal) V c).after 6 t) = _
  rw [after0_6]
  unfold out0_6
  rw [View.canon_unit_zero hz]
  simp only [View.ld_unit_zero (S := S8000x3) hz, View.ld_unit_zero (S := S3x32) hz, View.ld_unit_zero (S := S32x32) hz,
    View.ld_unit_zero (S := S1x32) hz]
  rw [pay_eq]
  obtain ⟨e00, e01, e10, e11, e20, e21, e30, e31, e40, e41, e50, e51, e61, e6le⟩ := idx_facts t
  -- the four small operands are read whole
  have r2 : iblk0 V c 2 t = V c main_arg3 := by
    funext y
    show V c main_arg3 (((cfg0.win 2).blk t).view.emb y) = V c main_arg3 y
    refine congrArg _ (funext fun a => Fin.ext ?_)
    match a with
    | ⟨0, _⟩ => show win0_2.index t (0 : Fin 2) * 3 + 1 * (y 0).val = (y 0).val; omega
    | ⟨1, _⟩ => show win0_2.index t (1 : Fin 2) * 32 + 1 * (y 1).val = (y 1).val; omega
  have r3 : iblk0 V c 3 t = V c main_v14 := by
    funext y
    show V c main_v14 (((cfg0.win 3).blk t).view.emb y) = V c main_v14 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 32 + 1 * (y 1).val = (y 1).val; omega
  have r4 : iblk0 V c 4 t = V c main_arg5 := by
    funext y
    show V c main_arg5 (((cfg0.win 4).blk t).view.emb y) = V c main_arg5 y
    refine congrArg _ (funext fun a => Fin.ext ?_)
    match a with
    | ⟨0, _⟩ => show win0_4.index t (0 : Fin 2) * 32 + 1 * (y 0).val = (y 0).val; omega
    | ⟨1, _⟩ => show win0_4.index t (1 : Fin 2) * 32 + 1 * (y 1).val = (y 1).val; omega
  have r5 : iblk0 V c 5 t = V c main_v15 := by
    funext y
    show V c main_v15 (((cfg0.win 5).blk t).view.emb y) = V c main_v15 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 32 + 1 * (y 1).val = (y 1).val; omega
  rw [r2, r3, r4, r5]
  funext j
  obtain ⟨p, q, rfl⟩ : ∃ (p : Fin 8000) (q : Fin 32), j = ix2 p q := ⟨j 0, j 1, eq_ix2 j⟩
  have hr : win0_6.index t (0 : Fin 2) * 8000 + p.val < 200000 := by have := p.isLt; omega
  -- the row of the whole array that row p of block t is
  have hemb : ((cfg0.win 6).blk t).view.emb (ix2 p q) = ix2 (⟨win0_6.index t (0 : Fin 2) * 8000 + p.val, hr⟩ : Fin 200000) q := by
    funext a; apply Fin.ext
    match a with
    | ⟨0, _⟩ => show win0_6.index t (0 : Fin 2) * 8000 + 1 * p.val = win0_6.index t (0 : Fin 2) * 8000 + p.val; omega
    | ⟨1, _⟩ => show win0_6.index t (1 : Fin 2) * 32 + 1 * q.val = q.val; omega
  have h0 : ∀ k : Fin 3, iblk0 V c 0 t (ix2 p k) = V c main_arg0 (ix2 (⟨win0_6.index t (0 : Fin 2) * 8000 + p.val, hr⟩ : Fin 200000) k) := by
    intro k
    show V c main_arg0 (((cfg0.win 0).blk t).view.emb (ix2 p k)) = _
    refine congrArg _ (funext fun a => Fin.ext ?_)
    match a with
    | ⟨0, _⟩ => show win0_0.index t (0 : Fin 2) * 8000 + 1 * p.val = win0_6.index t (0 : Fin 2) * 8000 + p.val; omega
    | ⟨1, _⟩ => show win0_0.index t (1 : Fin 2) * 3 + 1 * k.val = k.val; omega
  have h1 : ∀ k : Fin 3, iblk0 V c 1 t (ix2 p k) = V c main_v13 (ix2 (⟨win0_6.index t (0 : Fin 2) * 8000 + p.val, hr⟩ : Fin 200000) k) := by
    intro k
    show V c main_v13 (((cfg0.win 1).blk t).view.emb (ix2 p k)) = _
    refine congrArg _ (funext fun a => Fin.ext ?_)
    match a with
    | ⟨0, _⟩ => show win0_1.index t (0 : Fin 2) * 8000 + 1 * p.val = win0_6.index t (0 : Fin 2) * 8000 + p.val; omega
    | ⟨1, _⟩ => show win0_1.index t (1 : Fin 2) * 3 + 1 * k.val = k.val; omega
  show layer (iblk0 V c 0 t) (iblk0 V c 1 t) (V c main_arg3) (V c main_v14) (V c main_arg5) (V c main_v15) (ix2 p q)
    = layer (V c main_arg0) (V c main_v13) (V c main_arg3) (V c main_v14) (V c main_arg5) (V c main_v15) (((cfg0.win 6).blk t).view.emb (ix2 p q))
  rw [hemb]
  unfold layer
  rw [relu_apply, relu_apply]
  refine congrArg (max · Z) ?_
  refine lin_row _ _ _ _ p _ q fun k2 => ?_
  rw [relu_apply, relu_apply]
  refine congrArg (max · Z) ?_
  refine lin_row _ _ _ _ p _ k2 fun k1 => ?_
  exact congrArg₂ (fun a b : EReal => a + b) (h0 k1) (h1 k1)

/-- An index of the array is in grid point `t`'s block iff each coordinate is in the block's range on its axis. -/
theorem mem_blk (t : Fin cfg0.N) (i : S200000x32.Idx) :
    i ∈ ((cfg0.win 6).blk t).view.set ↔ ∀ a : Fin 2, win0_6.index t a * S8000x32.size a ≤ (i a).val ∧ (i a).val < win0_6.index t a * S8000x32.size a + S8000x32.size a := by
  show i ∈ ((View.whole main_v16).slice (win0_6.rect t)).set ↔ _
  rw [View.set_slice_whole, Rect.mem_set_unit]
  exact Iff.rfl

/-- The 25 blocks of 8000 rows cover the 200000 rows: row r lies in block r / 8000. -/
theorem cover (i : S200000x32.Idx) : ∃ t : Fin cfg0.N, (cfg0.win 6).flush t = true ∧ i ∈ ((cfg0.win 6).blk t).view.set := by
  have hi0 : (i 0).val < 200000 := (i 0).isLt
  have hi1 : (i 1).val < 32 := (i 1).isLt
  obtain ⟨t, ht⟩ := idx_onto ⟨(i 0).val / 8000, by omega⟩
  have q0 : win0_6.index t (0 : Fin 2) = (i 0).val / 8000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 32 ≤ (i 1).val ∧ (i 1).val < win0_6.index t (1 : Fin 2) * 32 + 32; omega

/-- The array region 0 leaves: the layer of the arrays it found. -/
theorem region_out (c : Dev nD) :
    (dat0 (F := Ideal) V c).arrAt 6 cfg0.N
      = layer (V c main_arg0) (V c main_v13) (V c main_arg3) (V c main_v14) (V c main_arg5) (V c main_v15) :=
  (dat0 (F := Ideal) V c).arrAt_eq_of_cover 6 _ (fun t _ => flushed_eq V c t) cover

end Cert.KernelIdeal.Reg0

end
-- ==== Proof.Region1.lean ====
/-
  Region 1 of the kernel, read as one function of the arrays it finds.  The region walks the 200000 rows of the
  feature matrix in 25 blocks of 8000 rows; at each block the body adds the block of neighbour sums to the block of
  features, applies the first affine map and the maximum with zero, then the second affine map and the maximum with zero again, with
  the two weight matrices and the two one-row biases read whole at every block.  An entry of a row-wise perceptron
  depends on its own row of the input only, so the block a grid point writes back is that block of the perceptron
  applied to the whole matrices; the 25 blocks tile the rows, hence the array the region leaves is the perceptron of
  the whole matrices.
-/
import proofs.«179286_j24249385353655_1_alg».proof.Proof.Gen.KernelIdeal.Frame
import proofs.«179286_j24249385353655_1_alg».proof.Proof.LibMlp

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibMlp

variable (V : (c : Dev nD) → (b : Ref sig .tc) → Buf (Elt Ideal) ((c : Thread nD τ).loc b))

theorem hz : (![0, 0] : Fin 2 → Nat) = fun _ => 0 := funext fun a => by fin_cases a <;> rfl

/-- The layer on matrices with any number of rows: features plus neighbour sums, through the two affine maps. -/
def layer {R : Nat} (h agg : (⟨2, ![R, 32]⟩ : Shape).Idx → EReal) (w1 : (⟨2, ![32, 32]⟩ : Shape).Idx → EReal)
    (b1 : (⟨2, ![1, 32]⟩ : Shape).Idx → EReal) (w2 : (⟨2, ![32, 32]⟩ : Shape).Idx → EReal) (b2 : (⟨2, ![1, 32]⟩ : Shape).Idx → EReal) :
    (⟨2, ![R, 32]⟩ : Shape).Idx → EReal :=
  relu (lin (relu (lin (addf (F := Ideal) (φ := .f32) h agg) w1 (rowOf b1))) w2 (rowOf b2))

/-- The body's stored value is the layer on the loaded blocks. -/
theorem pay_eq (x0 x1 : Vec Ideal S8000x32 .f32) (x2 : Vec Ideal S32x32 .f32) (x3 : Vec Ideal S1x32 .f32)
    (x4 : Vec Ideal S32x32 .f32) (x5 : Vec Ideal S1x32 .f32) :
    k1_pay1 (F := Ideal) x0 x1 x2 x3 x4 x5 = layer x0 x1 x2 x3 x4 x5 := by
  unfold k1_pay1 layer
  simp only [shapeCast_self]
  rw [kernel_lin dot_S8000x32_S32x32_S8000x32_1_0_0_1_n_n rfl rfl rfl rfl rfl rfl, kernel_relu,
    kernel_lin dot_S8000x32_S32x32_S8000x32_1_0_0_1_n_n rfl rfl rfl rfl rfl rfl, kernel_relu]

/-- The printed index maps, decided over the 25 grid points: the two row-blocked inputs move with the output's block,
    the four small operands stay at block (0, 0), and the output's block number is the grid point. -/
theorem idx_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 24 :=
  (by decide +kernel : ∀ t : Fin grid1.N, _)

/-- Every block of rows is some grid point's. -/
theorem idx_onto : ∀ q0 : Fin 25, ∃ t : Fin cfg1.N, win1_6.index t = ![q0.val, 0] :=
  (by decide +kernel : ∀ q0 : Fin 25, ∃ t : Fin grid1.N, win1_6.index t = ![q0.val, 0])

/-- What grid point `t` writes back is block `t` of the layer applied to the whole arrays. -/
theorem flushed_eq (c : Dev nD) (t : Fin cfg1.N) :
    (dat1 (F := Ideal) V c).flushed 6 t = ((cfg1.win 6).blk t).view.read (Elt Ideal)
      (layer (V c main_v16) (V c main_v34) (V c main_v18) (V c main_v35) (V c main_v22) (V c main_v36)) := by
  show (cfg1.win 6).cut (grid1.coords t) ((dat1 (F := Ideal) V c).after 6 t) = _
  rw [after1_6]
  unfold out1_6
  rw [View.canon_unit_zero hz]
  simp only [View.ld_unit_zero (S := S8000x32) hz, View.ld_unit_zero (S := S32x32) hz, View.ld_unit_zero (S := S32x32) hz,
    View.ld_unit_zero (S := S1x32) hz]
  rw [pay_eq]
  obtain ⟨e00, e01, e10, e11, e20, e21, e30, e31, e40, e41, e50, e51, e61, e6le⟩ := idx_facts t
  -- the four small operands are read whole
  have r2 : iblk1 V c 2 t = V c main_v18 := by
    funext y
    show V c main_v18 (((cfg1.win 2).blk t).view.emb y) = V c main_v18 y
    refine congrArg _ (funext fun a => Fin.ext ?_)
    match a with
    | ⟨0, _⟩ => show win1_2.index t (0 : Fin 2) * 32 + 1 * (y 0).val = (y 0).val; omega
    | ⟨1, _⟩ => show win1_2.index t (1 : Fin 2) * 32 + 1 * (y 1).val = (y 1).val; omega
  have r3 : iblk1 V c 3 t = V c main_v35 := by
    funext y
    show V c main_v35 (((cfg1.win 3).blk t).view.emb y) = V c main_v35 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 32 + 1 * (y 1).val = (y 1).val; omega
  have r4 : iblk1 V c 4 t = V c main_v22 := by
    funext y
    show V c main_v22 (((cfg1.win 4).blk t).view.emb y) = V c main_v22 y
    refine congrArg _ (funext fun a => Fin.ext ?_)
    match a with
    | ⟨0, _⟩ => show win1_4.index t (0 : Fin 2) * 32 + 1 * (y 0).val = (y 0).val; omega
    | ⟨1, _⟩ => show win1_4.index t (1 : Fin 2) * 32 + 1 * (y 1).val = (y 1).val; omega
  have r5 : iblk1 V c 5 t = V c main_v36 := by
    funext y
    show V c main_v36 (((cfg1.win 5).blk t).view.emb y) = V c main_v36 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 32 + 1 * (y 1).val = (y 1).val; omega
  rw [r2, r3, r4, r5]
  funext j
  obtain ⟨p, q, rfl⟩ : ∃ (p : Fin 8000) (q : Fin 32), j = ix2 p q := ⟨j 0, j 1, eq_ix2 j⟩
  have hr : win1_6.index t (0 : Fin 2) * 8000 + p.val < 200000 := by have := p.isLt; omega
  -- the row of the whole array that row p of block t is
  have hemb : ((cfg1.win 6).blk t).view.emb (ix2 p q) = ix2 (⟨win1_6.index t (0 : Fin 2) * 8000 + p.val, hr⟩ : Fin 200000) q := by
    funext a; apply Fin.ext
    match a with
    | ⟨0, _⟩ => show win1_6.index t (0 : Fin 2) * 8000 + 1 * p.val = win1_6.index t (0 : Fin 2) * 8000 + p.val; omega
    | ⟨1, _⟩ => show win1_6.index t (1 : Fin 2) * 32 + 1 * q.val = q.val; omega
  have h0 : ∀ k : Fin 32, iblk1 V c 0 t (ix2 p k) = V c main_v16 (ix2 (⟨win1_6.index t (0 : Fin 2) * 8000 + p.val, hr⟩ : Fin 200000) k) := by
    intro k
    show V c main_v16 (((cfg1.win 0).blk t).view.emb (ix2 p k)) = _
    refine congrArg _ (funext fun a => Fin.ext ?_)
    match a with
    | ⟨0, _⟩ => show win1_0.index t (0 : Fin 2) * 8000 + 1 * p.val = win1_6.index t (0 : Fin 2) * 8000 + p.val; omega
    | ⟨1, _⟩ => show win1_0.index t (1 : Fin 2) * 32 + 1 * k.val = k.val; omega
  have h1 : ∀ k : Fin 32, iblk1 V c 1 t (ix2 p k) = V c main_v34 (ix2 (⟨win1_6.index t (0 : Fin 2) * 8000 + p.val, hr⟩ : Fin 200000) k) := by
    intro k
    show V c main_v34 (((cfg1.win 1).blk t).view.emb (ix2 p k)) = _
    refine congrArg _ (funext fun a => Fin.ext ?_)
    match a with
    | ⟨0, _⟩ => show win1_1.index t (0 : Fin 2) * 8000 + 1 * p.val = win1_6.index t (0 : Fin 2) * 8000 + p.val; omega
    | ⟨1, _⟩ => show win1_1.index t (1 : Fin 2) * 32 + 1 * k.val = k.val; omega
  show layer (iblk1 V c 0 t) (iblk1 V c 1 t) (V c main_v18) (V c main_v35) (V c main_v22) (V c main_v36) (ix2 p q)
    = layer (V c main_v16) (V c main_v34) (V c main_v18) (V c main_v35) (V c main_v22) (V c main_v36) (((cfg1.win 6).blk t).view.emb (ix2 p q))
  rw [hemb]
  unfold layer
  rw [relu_apply, relu_apply]
  refine congrArg (max · Z) ?_
  refine lin_row _ _ _ _ p _ q fun k2 => ?_
  rw [relu_apply, relu_apply]
  refine congrArg (max · Z) ?_
  refine lin_row _ _ _ _ p _ k2 fun k1 => ?_
  exact congrArg₂ (fun a b : EReal => a + b) (h0 k1) (h1 k1)

/-- An index of the array is in grid point `t`'s block iff each coordinate is in the block's range on its axis. -/
theorem mem_blk (t : Fin cfg1.N) (i : S200000x32.Idx) :
    i ∈ ((cfg1.win 6).blk t).view.set ↔ ∀ a : Fin 2, win1_6.index t a * S8000x32.size a ≤ (i a).val ∧ (i a).val < win1_6.index t a * S8000x32.size a + S8000x32.size a := by
  show i ∈ ((View.whole main_v37).slice (win1_6.rect t)).set ↔ _
  rw [View.set_slice_whole, Rect.mem_set_unit]
  exact Iff.rfl

/-- The 25 blocks of 8000 rows cover the 200000 rows: row r lies in block r / 8000. -/
theorem cover (i : S200000x32.Idx) : ∃ t : Fin cfg1.N, (cfg1.win 6).flush t = true ∧ i ∈ ((cfg1.win 6).blk t).view.set := by
  have hi0 : (i 0).val < 200000 := (i 0).isLt
  have hi1 : (i 1).val < 32 := (i 1).isLt
  obtain ⟨t, ht⟩ := idx_onto ⟨(i 0).val / 8000, by omega⟩
  have q0 : win1_6.index t (0 : Fin 2) = (i 0).val / 8000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 32 ≤ (i 1).val ∧ (i 1).val < win1_6.index t (1 : Fin 2) * 32 + 32; omega

/-- The array region 1 leaves: the layer of the arrays it found. -/
theorem region_out (c : Dev nD) :
    (dat1 (F := Ideal) V c).arrAt 6 cfg1.N
      = layer (V c main_v16) (V c main_v34) (V c main_v18) (V c main_v35) (V c main_v22) (V c main_v36) :=
  (dat1 (F := Ideal) V c).arrAt_eq_of_cover 6 _ (fun t _ => flushed_eq V c t) cover

end Cert.KernelIdeal.Reg1

end
-- ==== Proof.Region2.lean ====
/-
  Region 2 of the kernel, read as one function of the arrays it finds.  The region walks the 200000 rows of the
  feature matrix in 25 blocks of 8000 rows; at each block the body adds the block of neighbour sums to the block of
  features, applies the first affine map and the maximum with zero, then the second affine map and the maximum with zero again, with
  the two weight matrices and the two one-row biases read whole at every block.  An entry of a row-wise perceptron
  depends on its own row of the input only, so the block a grid point writes back is that block of the perceptron
  applied to the whole matrices; the 25 blocks tile the rows, hence the array the region leaves is the perceptron of
  the whole matrices.
-/
import proofs.«179286_j24249385353655_1_alg».proof.Proof.Gen.KernelIdeal.Frame
import proofs.«179286_j24249385353655_1_alg».proof.Proof.LibMlp

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibMlp

variable (V : (c : Dev nD) → (b : Ref sig .tc) → Buf (Elt Ideal) ((c : Thread nD τ).loc b))

theorem hz : (![0, 0] : Fin 2 → Nat) = fun _ => 0 := funext fun a => by fin_cases a <;> rfl

/-- The layer on matrices with any number of rows: features plus neighbour sums, through the two affine maps. -/
def layer {R : Nat} (h agg : (⟨2, ![R, 32]⟩ : Shape).Idx → EReal) (w1 : (⟨2, ![32, 32]⟩ : Shape).Idx → EReal)
    (b1 : (⟨2, ![1, 32]⟩ : Shape).Idx → EReal) (w2 : (⟨2, ![32, 32]⟩ : Shape).Idx → EReal) (b2 : (⟨2, ![1, 32]⟩ : Shape).Idx → EReal) :
    (⟨2, ![R, 32]⟩ : Shape).Idx → EReal :=
  relu (lin (relu (lin (addf (F := Ideal) (φ := .f32) h agg) w1 (rowOf b1))) w2 (rowOf b2))

/-- The body's stored value is the layer on the loaded blocks. -/
theorem pay_eq (x0 x1 : Vec Ideal S8000x32 .f32) (x2 : Vec Ideal S32x32 .f32) (x3 : Vec Ideal S1x32 .f32)
    (x4 : Vec Ideal S32x32 .f32) (x5 : Vec Ideal S1x32 .f32) :
    k2_pay1 (F := Ideal) x0 x1 x2 x3 x4 x5 = layer x0 x1 x2 x3 x4 x5 := by
  unfold k2_pay1 layer
  simp only [shapeCast_self]
  rw [kernel_lin dot_S8000x32_S32x32_S8000x32_1_0_0_1_n_n rfl rfl rfl rfl rfl rfl, kernel_relu,
    kernel_lin dot_S8000x32_S32x32_S8000x32_1_0_0_1_n_n rfl rfl rfl rfl rfl rfl, kernel_relu]

/-- The printed index maps, decided over the 25 grid points: the two row-blocked inputs move with the output's block,
    the four small operands stay at block (0, 0), and the output's block number is the grid point. -/
theorem idx_facts : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 24 :=
  (by decide +kernel : ∀ t : Fin grid2.N, _)

/-- Every block of rows is some grid point's. -/
theorem idx_onto : ∀ q0 : Fin 25, ∃ t : Fin cfg2.N, win2_6.index t = ![q0.val, 0] :=
  (by decide +kernel : ∀ q0 : Fin 25, ∃ t : Fin grid2.N, win2_6.index t = ![q0.val, 0])

/-- What grid point `t` writes back is block `t` of the layer applied to the whole arrays. -/
theorem flushed_eq (c : Dev nD) (t : Fin cfg2.N) :
    (dat2 (F := Ideal) V c).flushed 6 t = ((cfg2.win 6).blk t).view.read (Elt Ideal)
      (layer (V c main_v37) (V c main_v55) (V c main_v39) (V c main_v56) (V c main_v43) (V c main_v57)) := by
  show (cfg2.win 6).cut (grid2.coords t) ((dat2 (F := Ideal) V c).after 6 t) = _
  rw [after2_6]
  unfold out2_6
  rw [View.canon_unit_zero hz]
  simp only [View.ld_unit_zero (S := S8000x32) hz, View.ld_unit_zero (S := S32x32) hz, View.ld_unit_zero (S := S32x32) hz,
    View.ld_unit_zero (S := S1x32) hz]
  rw [pay_eq]
  obtain ⟨e00, e01, e10, e11, e20, e21, e30, e31, e40, e41, e50, e51, e61, e6le⟩ := idx_facts t
  -- the four small operands are read whole
  have r2 : iblk2 V c 2 t = V c main_v39 := by
    funext y
    show V c main_v39 (((cfg2.win 2).blk t).view.emb y) = V c main_v39 y
    refine congrArg _ (funext fun a => Fin.ext ?_)
    match a with
    | ⟨0, _⟩ => show win2_2.index t (0 : Fin 2) * 32 + 1 * (y 0).val = (y 0).val; omega
    | ⟨1, _⟩ => show win2_2.index t (1 : Fin 2) * 32 + 1 * (y 1).val = (y 1).val; omega
  have r3 : iblk2 V c 3 t = V c main_v56 := by
    funext y
    show V c main_v56 (((cfg2.win 3).blk t).view.emb y) = V c main_v56 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 32 + 1 * (y 1).val = (y 1).val; omega
  have r4 : iblk2 V c 4 t = V c main_v43 := by
    funext y
    show V c main_v43 (((cfg2.win 4).blk t).view.emb y) = V c main_v43 y
    refine congrArg _ (funext fun a => Fin.ext ?_)
    match a with
    | ⟨0, _⟩ => show win2_4.index t (0 : Fin 2) * 32 + 1 * (y 0).val = (y 0).val; omega
    | ⟨1, _⟩ => show win2_4.index t (1 : Fin 2) * 32 + 1 * (y 1).val = (y 1).val; omega
  have r5 : iblk2 V c 5 t = V c main_v57 := by
    funext y
    show V c main_v57 (((cfg2.win 5).blk t).view.emb y) = V c main_v57 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 32 + 1 * (y 1).val = (y 1).val; omega
  rw [r2, r3, r4, r5]
  funext j
  obtain ⟨p, q, rfl⟩ : ∃ (p : Fin 8000) (q : Fin 32), j = ix2 p q := ⟨j 0, j 1, eq_ix2 j⟩
  have hr : win2_6.index t (0 : Fin 2) * 8000 + p.val < 200000 := by have := p.isLt; omega
  -- the row of the whole array that row p of block t is
  have hemb : ((cfg2.win 6).blk t).view.emb (ix2 p q) = ix2 (⟨win2_6.index t (0 : Fin 2) * 8000 + p.val, hr⟩ : Fin 200000) q := by
    funext a; apply Fin.ext
    match a with
    | ⟨0, _⟩ => show win2_6.index t (0 : Fin 2) * 8000 + 1 * p.val = win2_6.index t (0 : Fin 2) * 8000 + p.val; omega
    | ⟨1, _⟩ => show win2_6.index t (1 : Fin 2) * 32 + 1 * q.val = q.val; omega
  have h0 : ∀ k : Fin 32, iblk2 V c 0 t (ix2 p k) = V c main_v37 (ix2 (⟨win2_6.index t (0 : Fin 2) * 8000 + p.val, hr⟩ : Fin 200000) k) := by
    intro k
    show V c main_v37 (((cfg2.win 0).blk t).view.emb (ix2 p k)) = _
    refine congrArg _ (funext fun a => Fin.ext ?_)
    match a with
    | ⟨0, _⟩ => show win2_0.index t (0 : Fin 2) * 8000 + 1 * p.val = win2_6.index t (0 : Fin 2) * 8000 + p.val; omega
    | ⟨1, _⟩ => show win2_0.index t (1 : Fin 2) * 32 + 1 * k.val = k.val; omega
  have h1 : ∀ k : Fin 32, iblk2 V c 1 t (ix2 p k) = V c main_v55 (ix2 (⟨win2_6.index t (0 : Fin 2) * 8000 + p.val, hr⟩ : Fin 200000) k) := by
    intro k
    show V c main_v55 (((cfg2.win 1).blk t).view.emb (ix2 p k)) = _
    refine congrArg _ (funext fun a => Fin.ext ?_)
    match a with
    | ⟨0, _⟩ => show win2_1.index t (0 : Fin 2) * 8000 + 1 * p.val = win2_6.index t (0 : Fin 2) * 8000 + p.val; omega
    | ⟨1, _⟩ => show win2_1.index t (1 : Fin 2) * 32 + 1 * k.val = k.val; omega
  show layer (iblk2 V c 0 t) (iblk2 V c 1 t) (V c main_v39) (V c main_v56) (V c main_v43) (V c main_v57) (ix2 p q)
    = layer (V c main_v37) (V c main_v55) (V c main_v39) (V c main_v56) (V c main_v43) (V c main_v57) (((cfg2.win 6).blk t).view.emb (ix2 p q))
  rw [hemb]
  unfold layer
  rw [relu_apply, relu_apply]
  refine congrArg (max · Z) ?_
  refine lin_row _ _ _ _ p _ q fun k2 => ?_
  rw [relu_apply, relu_apply]
  refine congrArg (max · Z) ?_
  refine lin_row _ _ _ _ p _ k2 fun k1 => ?_
  exact congrArg₂ (fun a b : EReal => a + b) (h0 k1) (h1 k1)

/-- An index of the array is in grid point `t`'s block iff each coordinate is in the block's range on its axis. -/
theorem mem_blk (t : Fin cfg2.N) (i : S200000x32.Idx) :
    i ∈ ((cfg2.win 6).blk t).view.set ↔ ∀ a : Fin 2, win2_6.index t a * S8000x32.size a ≤ (i a).val ∧ (i a).val < win2_6.index t a * S8000x32.size a + S8000x32.size a := by
  show i ∈ ((View.whole main_v58).slice (win2_6.rect t)).set ↔ _
  rw [View.set_slice_whole, Rect.mem_set_unit]
  exact Iff.rfl

/-- The 25 blocks of 8000 rows cover the 200000 rows: row r lies in block r / 8000. -/
theorem cover (i : S200000x32.Idx) : ∃ t : Fin cfg2.N, (cfg2.win 6).flush t = true ∧ i ∈ ((cfg2.win 6).blk t).view.set := by
  have hi0 : (i 0).val < 200000 := (i 0).isLt
  have hi1 : (i 1).val < 32 := (i 1).isLt
  obtain ⟨t, ht⟩ := idx_onto ⟨(i 0).val / 8000, by omega⟩
  have q0 : win2_6.index t (0 : Fin 2) = (i 0).val / 8000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 8000 ≤ (i 0).val ∧ (i 0).val < win2_6.index t (0 : Fin 2) * 8000 + 8000; omega
  | ⟨1, _⟩ => show win2_6.index t (1 : Fin 2) * 32 ≤ (i 1).val ∧ (i 1).val < win2_6.index t (1 : Fin 2) * 32 + 32; omega

/-- The array region 2 leaves: the layer of the arrays it found. -/
theorem region_out (c : Dev nD) :
    (dat2 (F := Ideal) V c).arrAt 6 cfg2.N
      = layer (V c main_v37) (V c main_v55) (V c main_v39) (V c main_v56) (V c main_v43) (V c main_v57) :=
  (dat2 (F := Ideal) V c).arrAt_eq_of_cover 6 _ (fun t _ => flushed_eq V c t) cover

end Cert.KernelIdeal.Reg2

end
-- ==== Proof.Region3.lean ====
/-
  Region 3 of the kernel, read as one function of the arrays it finds.  The region walks the 200000 rows of the
  feature matrix in 25 blocks of 8000 rows; at each block the body adds the block of neighbour sums to the block of
  features, applies the first affine map and the maximum with zero, then the second affine map and the maximum with zero again, with
  the two weight matrices and the two one-row biases read whole at every block.  An entry of a row-wise perceptron
  depends on its own row of the input only, so the block a grid point writes back is that block of the perceptron
  applied to the whole matrices; the 25 blocks tile the rows, hence the array the region leaves is the perceptron of
  the whole matrices.
-/
import proofs.«179286_j24249385353655_1_alg».proof.Proof.Gen.KernelIdeal.Frame
import proofs.«179286_j24249385353655_1_alg».proof.Proof.LibMlp

set_option maxRecDepth 16384

noncomputable section

namespace Cert.KernelIdeal.Reg3

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibMlp

variable (V : (c : Dev nD) → (b : Ref sig .tc) → Buf (Elt Ideal) ((c : Thread nD τ).loc b))

theorem hz : (![0, 0] : Fin 2 → Nat) = fun _ => 0 := funext fun a => by fin_cases a <;> rfl

/-- The layer on matrices with any number of rows: features plus neighbour sums, through the two affine maps. -/
def layer {R : Nat} (h agg : (⟨2, ![R, 32]⟩ : Shape).Idx → EReal) (w1 : (⟨2, ![32, 32]⟩ : Shape).Idx → EReal)
    (b1 : (⟨2, ![1, 32]⟩ : Shape).Idx → EReal) (w2 : (⟨2, ![32, 32]⟩ : Shape).Idx → EReal) (b2 : (⟨2, ![1, 32]⟩ : Shape).Idx → EReal) :
    (⟨2, ![R, 32]⟩ : Shape).Idx → EReal :=
  relu (lin (relu (lin (addf (F := Ideal) (φ := .f32) h agg) w1 (rowOf b1))) w2 (rowOf b2))

/-- The body's stored value is the layer on the loaded blocks. -/
theorem pay_eq (x0 x1 : Vec Ideal S8000x32 .f32) (x2 : Vec Ideal S32x32 .f32) (x3 : Vec Ideal S1x32 .f32)
    (x4 : Vec Ideal S32x32 .f32) (x5 : Vec Ideal S1x32 .f32) :
    k3_pay1 (F := Ideal) x0 x1 x2 x3 x4 x5 = layer x0 x1 x2 x3 x4 x5 := by
  unfold k3_pay1 layer
  simp only [shapeCast_self]
  rw [kernel_lin dot_S8000x32_S32x32_S8000x32_1_0_0_1_n_n rfl rfl rfl rfl rfl rfl, kernel_relu,
    kernel_lin dot_S8000x32_S32x32_S8000x32_1_0_0_1_n_n rfl rfl rfl rfl rfl rfl, kernel_relu]

/-- The printed index maps, decided over the 25 grid points: the two row-blocked inputs move with the output's block,
    the four small operands stay at block (0, 0), and the output's block number is the grid point. -/
theorem idx_facts : ∀ t : Fin cfg3.N, win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0 ∧ win3_6.index t (0 : Fin 2) ≤ 24 :=
  (by decide +kernel : ∀ t : Fin grid3.N, _)

/-- Every block of rows is some grid point's. -/
theorem idx_onto : ∀ q0 : Fin 25, ∃ t : Fin cfg3.N, win3_6.index t = ![q0.val, 0] :=
  (by decide +kernel : ∀ q0 : Fin 25, ∃ t : Fin grid3.N, win3_6.index t = ![q0.val, 0])

/-- What grid point `t` writes back is block `t` of the layer applied to the whole arrays. -/
theorem flushed_eq (c : Dev nD) (t : Fin cfg3.N) :
    (dat3 (F := Ideal) V c).flushed 6 t = ((cfg3.win 6).blk t).view.read (Elt Ideal)
      (layer (V c main_v58) (V c main_v76) (V c main_v60) (V c main_v77) (V c main_v64) (V c main_v78)) := by
  show (cfg3.win 6).cut (grid3.coords t) ((dat3 (F := Ideal) V c).after 6 t) = _
  rw [after3_6]
  unfold out3_6
  rw [View.canon_unit_zero hz]
  simp only [View.ld_unit_zero (S := S8000x32) hz, View.ld_unit_zero (S := S32x32) hz, View.ld_unit_zero (S := S32x32) hz,
    View.ld_unit_zero (S := S1x32) hz]
  rw [pay_eq]
  obtain ⟨e00, e01, e10, e11, e20, e21, e30, e31, e40, e41, e50, e51, e61, e6le⟩ := idx_facts t
  -- the four small operands are read whole
  have r2 : iblk3 V c 2 t = V c main_v60 := by
    funext y
    show V c main_v60 (((cfg3.win 2).blk t).view.emb y) = V c main_v60 y
    refine congrArg _ (funext fun a => Fin.ext ?_)
    match a with
    | ⟨0, _⟩ => show win3_2.index t (0 : Fin 2) * 32 + 1 * (y 0).val = (y 0).val; omega
    | ⟨1, _⟩ => show win3_2.index t (1 : Fin 2) * 32 + 1 * (y 1).val = (y 1).val; omega
  have r3 : iblk3 V c 3 t = V c main_v77 := by
    funext y
    show V c main_v77 (((cfg3.win 3).blk t).view.emb y) = V c main_v77 y
    refine congrArg _ (funext fun a => Fin.ext ?_)
    match a with
    | ⟨0, _⟩ => show win3_3.index t (0 : Fin 2) * 1 + 1 * (y 0).val = (y 0).val; omega
    | ⟨1, _⟩ => show win3_3.index t (1 : Fin 2) * 32 + 1 * (y 1).val = (y 1).val; omega
  have r4 : iblk3 V c 4 t = V c main_v64 := by
    funext y
    show V c main_v64 (((cfg3.win 4).blk t).view.emb y) = V c main_v64 y
    refine congrArg _ (funext fun a => Fin.ext ?_)
    match a with
    | ⟨0, _⟩ => show win3_4.index t (0 : Fin 2) * 32 + 1 * (y 0).val = (y 0).val; omega
    | ⟨1, _⟩ => show win3_4.index t (1 : Fin 2) * 32 + 1 * (y 1).val = (y 1).val; omega
  have r5 : iblk3 V c 5 t = V c main_v78 := by
    funext y
    show V c main_v78 (((cfg3.win 5).blk t).view.emb y) = V c main_v78 y
    refine congrArg _ (funext fun a => Fin.ext ?_)
    match a with
    | ⟨0, _⟩ => show win3_5.index t (0 : Fin 2) * 1 + 1 * (y 0).val = (y 0).val; omega
    | ⟨1, _⟩ => show win3_5.index t (1 : Fin 2) * 32 + 1 * (y 1).val = (y 1).val; omega
  rw [r2, r3, r4, r5]
  funext j
  obtain ⟨p, q, rfl⟩ : ∃ (p : Fin 8000) (q : Fin 32), j = ix2 p q := ⟨j 0, j 1, eq_ix2 j⟩
  have hr : win3_6.index t (0 : Fin 2) * 8000 + p.val < 200000 := by have := p.isLt; omega
  -- the row of the whole array that row p of block t is
  have hemb : ((cfg3.win 6).blk t).view.emb (ix2 p q) = ix2 (⟨win3_6.index t (0 : Fin 2) * 8000 + p.val, hr⟩ : Fin 200000) q := by
    funext a; apply Fin.ext
    match a with
    | ⟨0, _⟩ => show win3_6.index t (0 : Fin 2) * 8000 + 1 * p.val = win3_6.index t (0 : Fin 2) * 8000 + p.val; omega
    | ⟨1, _⟩ => show win3_6.index t (1 : Fin 2) * 32 + 1 * q.val = q.val; omega
  have h0 : ∀ k : Fin 32, iblk3 V c 0 t (ix2 p k) = V c main_v58 (ix2 (⟨win3_6.index t (0 : Fin 2) * 8000 + p.val, hr⟩ : Fin 200000) k) := by
    intro k
    show V c main_v58 (((cfg3.win 0).blk t).view.emb (ix2 p k)) = _
    refine congrArg _ (funext fun a => Fin.ext ?_)
    match a with
    | ⟨0, _⟩ => show win3_0.index t (0 : Fin 2) * 8000 + 1 * p.val = win3_6.index t (0 : Fin 2) * 8000 + p.val; omega
    | ⟨1, _⟩ => show win3_0.index t (1 : Fin 2) * 32 + 1 * k.val = k.val; omega
  have h1 : ∀ k : Fin 32, iblk3 V c 1 t (ix2 p k) = V c main_v76 (ix2 (⟨win3_6.index t (0 : Fin 2) * 8000 + p.val, hr⟩ : Fin 200000) k) := by
    intro k
    show V c main_v76 (((cfg3.win 1).blk t).view.emb (ix2 p k)) = _
    refine congrArg _ (funext fun a => Fin.ext ?_)
    match a with
    | ⟨0, _⟩ => show win3_1.index t (0 : Fin 2) * 8000 + 1 * p.val = win3_6.index t (0 : Fin 2) * 8000 + p.val; omega
    | ⟨1, _⟩ => show win3_1.index t (1 : Fin 2) * 32 + 1 * k.val = k.val; omega
  show layer (iblk3 V c 0 t) (iblk3 V c 1 t) (V c main_v60) (V c main_v77) (V c main_v64) (V c main_v78) (ix2 p q)
    = layer (V c main_v58) (V c main_v76) (V c main_v60) (V c main_v77) (V c main_v64) (V c main_v78) (((cfg3.win 6).blk t).view.emb (ix2 p q))
  rw [hemb]
  unfold layer
  rw [relu_apply, relu_apply]
  refine congrArg (max · Z) ?_
  refine lin_row _ _ _ _ p _ q fun k2 => ?_
  rw [relu_apply, relu_apply]
  refine congrArg (max · Z) ?_
  refine lin_row _ _ _ _ p _ k2 fun k1 => ?_
  exact congrArg₂ (fun a b : EReal => a + b) (h0 k1) (h1 k1)

/-- An index of the array is in grid point `t`'s block iff each coordinate is in the block's range on its axis. -/
theorem mem_blk (t : Fin cfg3.N) (i : S200000x32.Idx) :
    i ∈ ((cfg3.win 6).blk t).view.set ↔ ∀ a : Fin 2, win3_6.index t a * S8000x32.size a ≤ (i a).val ∧ (i a).val < win3_6.index t a * S8000x32.size a + S8000x32.size a := by
  show i ∈ ((View.whole main_v79).slice (win3_6.rect t)).set ↔ _
  rw [View.set_slice_whole, Rect.mem_set_unit]
  exact Iff.rfl

/-- The 25 blocks of 8000 rows cover the 200000 rows: row r lies in block r / 8000. -/
theorem cover (i : S200000x32.Idx) : ∃ t : Fin cfg3.N, (cfg3.win 6).flush t = true ∧ i ∈ ((cfg3.win 6).blk t).view.set := by
  have hi0 : (i 0).val < 200000 := (i 0).isLt
  have hi1 : (i 1).val < 32 := (i 1).isLt
  obtain ⟨t, ht⟩ := idx_onto ⟨(i 0).val / 8000, by omega⟩
  have q0 : win3_6.index t (0 : Fin 2) = (i 0).val / 8000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 8000 ≤ (i 0).val ∧ (i 0).val < win3_6.index t (0 : Fin 2) * 8000 + 8000; omega
  | ⟨1, _⟩ => show win3_6.index t (1 : Fin 2) * 32 ≤ (i 1).val ∧ (i 1).val < win3_6.index t (1 : Fin 2) * 32 + 32; omega

/-- The array region 3 leaves: the layer of the arrays it found. -/
theorem region_out (c : Dev nD) :
    (dat3 (F := Ideal) V c).arrAt 6 cfg3.N
      = layer (V c main_v58) (V c main_v76) (V c main_v60) (V c main_v77) (V c main_v64) (V c main_v78) :=
  (dat3 (F := Ideal) V c).arrAt_eq_of_cover 6 _ (fun t _ => flushed_eq V c t) cover

end Cert.KernelIdeal.Reg3

end
-- ==== Proof.Region4.lean ====
/-
  Region 4 of the kernel, read as one function of the arrays it finds.  The region walks the 200000 rows of the
  feature matrix in 25 blocks of 8000 rows; at each block the body adds the block of neighbour sums to the block of
  features, applies the first affine map and the maximum with zero, then the second affine map, with
  the two weight matrices and the two one-row biases read whole at every block.  An entry of a row-wise perceptron
  depends on its own row of the input only, so the block a grid point writes back is that block of the perceptron
  applied to the whole matrices; the 25 blocks tile the rows, hence the array the region leaves is the perceptron of
  the whole matrices.
-/
import proofs.«179286_j24249385353655_1_alg».proof.Proof.Gen.KernelIdeal.Frame
import proofs.«179286_j24249385353655_1_alg».proof.Proof.LibMlp

set_option maxRecDepth 16384

noncomputable section

namespace Cert.KernelIdeal.Reg4

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibMlp

variable (V : (c : Dev nD) → (b : Ref sig .tc) → Buf (Elt Ideal) ((c : Thread nD τ).loc b))

theorem hz : (![0, 0] : Fin 2 → Nat) = fun _ => 0 := funext fun a => by fin_cases a <;> rfl

/-- The layer on matrices with any number of rows: features plus neighbour sums, through the two affine maps. -/
def layer {R : Nat} (h agg : (⟨2, ![R, 32]⟩ : Shape).Idx → EReal) (w1 : (⟨2, ![32, 32]⟩ : Shape).Idx → EReal)
    (b1 : (⟨2, ![1, 32]⟩ : Shape).Idx → EReal) (w2 : (⟨2, ![32, 32]⟩ : Shape).Idx → EReal) (b2 : (⟨2, ![1, 32]⟩ : Shape).Idx → EReal) :
    (⟨2, ![R, 32]⟩ : Shape).Idx → EReal :=
  (lin (relu (lin (addf (F := Ideal) (φ := .f32) h agg) w1 (rowOf b1))) w2 (rowOf b2))

/-- The body's stored value is the layer on the loaded blocks. -/
theorem pay_eq (x0 x1 : Vec Ideal S8000x32 .f32) (x2 : Vec Ideal S32x32 .f32) (x3 : Vec Ideal S1x32 .f32)
    (x4 : Vec Ideal S32x32 .f32) (x5 : Vec Ideal S1x32 .f32) :
    k4_pay1 (F := Ideal) x0 x1 x2 x3 x4 x5 = layer x0 x1 x2 x3 x4 x5 := by
  unfold k4_pay1 layer
  simp only [shapeCast_self]
  rw [kernel_lin dot_S8000x32_S32x32_S8000x32_1_0_0_1_n_n rfl rfl rfl rfl rfl rfl, kernel_relu,
    kernel_lin dot_S8000x32_S32x32_S8000x32_1_0_0_1_n_n rfl rfl rfl rfl rfl rfl]

/-- The printed index maps, decided over the 25 grid points: the two row-blocked inputs move with the output's block,
    the four small operands stay at block (0, 0), and the output's block number is the grid point. -/
theorem idx_facts : ∀ t : Fin cfg4.N, win4_0.index t (0 : Fin 2) = win4_6.index t (0 : Fin 2)
    ∧ win4_0.index t (1 : Fin 2) = 0
    ∧ win4_1.index t (0 : Fin 2) = win4_6.index t (0 : Fin 2)
    ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) ≤ 24 :=
  (by decide +kernel : ∀ t : Fin grid4.N, _)

/-- Every block of rows is some grid point's. -/
theorem idx_onto : ∀ q0 : Fin 25, ∃ t : Fin cfg4.N, win4_6.index t = ![q0.val, 0] :=
  (by decide +kernel : ∀ q0 : Fin 25, ∃ t : Fin grid4.N, win4_6.index t = ![q0.val, 0])

/-- What grid point `t` writes back is block `t` of the layer applied to the whole arrays. -/
theorem flushed_eq (c : Dev nD) (t : Fin cfg4.N) :
    (dat4 (F := Ideal) V c).flushed 6 t = ((cfg4.win 6).blk t).view.read (Elt Ideal)
      (layer (V c main_v79) (V c main_v97) (V c main_v81) (V c main_v98) (V c main_v85) (V c main_v99)) := by
  show (cfg4.win 6).cut (grid4.coords t) ((dat4 (F := Ideal) V c).after 6 t) = _
  rw [after4_6]
  unfold out4_6
  rw [View.canon_unit_zero hz]
  simp only [View.ld_unit_zero (S := S8000x32) hz, View.ld_unit_zero (S := S32x32) hz, View.ld_unit_zero (S := S32x32) hz,
    View.ld_unit_zero (S := S1x32) hz]
  rw [pay_eq]
  obtain ⟨e00, e01, e10, e11, e20, e21, e30, e31, e40, e41, e50, e51, e61, e6le⟩ := idx_facts t
  -- the four small operands are read whole
  have r2 : iblk4 V c 2 t = V c main_v81 := by
    funext y
    show V c main_v81 (((cfg4.win 2).blk t).view.emb y) = V c main_v81 y
    refine congrArg _ (funext fun a => Fin.ext ?_)
    match a with
    | ⟨0, _⟩ => show win4_2.index t (0 : Fin 2) * 32 + 1 * (y 0).val = (y 0).val; omega
    | ⟨1, _⟩ => show win4_2.index t (1 : Fin 2) * 32 + 1 * (y 1).val = (y 1).val; omega
  have r3 : iblk4 V c 3 t = V c main_v98 := by
    funext y
    show V c main_v98 (((cfg4.win 3).blk t).view.emb y) = V c main_v98 y
    refine congrArg _ (funext fun a => Fin.ext ?_)
    match a with
    | ⟨0, _⟩ => show win4_3.index t (0 : Fin 2) * 1 + 1 * (y 0).val = (y 0).val; omega
    | ⟨1, _⟩ => show win4_3.index t (1 : Fin 2) * 32 + 1 * (y 1).val = (y 1).val; omega
  have r4 : iblk4 V c 4 t = V c main_v85 := by
    funext y
    show V c main_v85 (((cfg4.win 4).blk t).view.emb y) = V c main_v85 y
    refine congrArg _ (funext fun a => Fin.ext ?_)
    match a with
    | ⟨0, _⟩ => show win4_4.index t (0 : Fin 2) * 32 + 1 * (y 0).val = (y 0).val; omega
    | ⟨1, _⟩ => show win4_4.index t (1 : Fin 2) * 32 + 1 * (y 1).val = (y 1).val; omega
  have r5 : iblk4 V c 5 t = V c main_v99 := by
    funext y
    show V c main_v99 (((cfg4.win 5).blk t).view.emb y) = V c main_v99 y
    refine congrArg _ (funext fun a => Fin.ext ?_)
    match a with
    | ⟨0, _⟩ => show win4_5.index t (0 : Fin 2) * 1 + 1 * (y 0).val = (y 0).val; omega
    | ⟨1, _⟩ => show win4_5.index t (1 : Fin 2) * 32 + 1 * (y 1).val = (y 1).val; omega
  rw [r2, r3, r4, r5]
  funext j
  obtain ⟨p, q, rfl⟩ : ∃ (p : Fin 8000) (q : Fin 32), j = ix2 p q := ⟨j 0, j 1, eq_ix2 j⟩
  have hr : win4_6.index t (0 : Fin 2) * 8000 + p.val < 200000 := by have := p.isLt; omega
  -- the row of the whole array that row p of block t is
  have hemb : ((cfg4.win 6).blk t).view.emb (ix2 p q) = ix2 (⟨win4_6.index t (0 : Fin 2) * 8000 + p.val, hr⟩ : Fin 200000) q := by
    funext a; apply Fin.ext
    match a with
    | ⟨0, _⟩ => show win4_6.index t (0 : Fin 2) * 8000 + 1 * p.val = win4_6.index t (0 : Fin 2) * 8000 + p.val; omega
    | ⟨1, _⟩ => show win4_6.index t (1 : Fin 2) * 32 + 1 * q.val = q.val; omega
  have h0 : ∀ k : Fin 32, iblk4 V c 0 t (ix2 p k) = V c main_v79 (ix2 (⟨win4_6.index t (0 : Fin 2) * 8000 + p.val, hr⟩ : Fin 200000) k) := by
    intro k
    show V c main_v79 (((cfg4.win 0).blk t).view.emb (ix2 p k)) = _
    refine congrArg _ (funext fun a => Fin.ext ?_)
    match a with
    | ⟨0, _⟩ => show win4_0.index t (0 : Fin 2) * 8000 + 1 * p.val = win4_6.index t (0 : Fin 2) * 8000 + p.val; omega
    | ⟨1, _⟩ => show win4_0.index t (1 : Fin 2) * 32 + 1 * k.val = k.val; omega
  have h1 : ∀ k : Fin 32, iblk4 V c 1 t (ix2 p k) = V c main_v97 (ix2 (⟨win4_6.index t (0 : Fin 2) * 8000 + p.val, hr⟩ : Fin 200000) k) := by
    intro k
    show V c main_v97 (((cfg4.win 1).blk t).view.emb (ix2 p k)) = _
    refine congrArg _ (funext fun a => Fin.ext ?_)
    match a with
    | ⟨0, _⟩ => show win4_1.index t (0 : Fin 2) * 8000 + 1 * p.val = win4_6.index t (0 : Fin 2) * 8000 + p.val; omega
    | ⟨1, _⟩ => show win4_1.index t (1 : Fin 2) * 32 + 1 * k.val = k.val; omega
  show layer (iblk4 V c 0 t) (iblk4 V c 1 t) (V c main_v81) (V c main_v98) (V c main_v85) (V c main_v99) (ix2 p q)
    = layer (V c main_v79) (V c main_v97) (V c main_v81) (V c main_v98) (V c main_v85) (V c main_v99) (((cfg4.win 6).blk t).view.emb (ix2 p q))
  rw [hemb]
  unfold layer

  refine lin_row _ _ _ _ p _ q fun k2 => ?_
  rw [relu_apply, relu_apply]
  refine congrArg (max · Z) ?_
  refine lin_row _ _ _ _ p _ k2 fun k1 => ?_
  exact congrArg₂ (fun a b : EReal => a + b) (h0 k1) (h1 k1)

/-- An index of the array is in grid point `t`'s block iff each coordinate is in the block's range on its axis. -/
theorem mem_blk (t : Fin cfg4.N) (i : S200000x32.Idx) :
    i ∈ ((cfg4.win 6).blk t).view.set ↔ ∀ a : Fin 2, win4_6.index t a * S8000x32.size a ≤ (i a).val ∧ (i a).val < win4_6.index t a * S8000x32.size a + S8000x32.size a := by
  show i ∈ ((View.whole main_v100).slice (win4_6.rect t)).set ↔ _
  rw [View.set_slice_whole, Rect.mem_set_unit]
  exact Iff.rfl

/-- The 25 blocks of 8000 rows cover the 200000 rows: row r lies in block r / 8000. -/
theorem cover (i : S200000x32.Idx) : ∃ t : Fin cfg4.N, (cfg4.win 6).flush t = true ∧ i ∈ ((cfg4.win 6).blk t).view.set := by
  have hi0 : (i 0).val < 200000 := (i 0).isLt
  have hi1 : (i 1).val < 32 := (i 1).isLt
  obtain ⟨t, ht⟩ := idx_onto ⟨(i 0).val / 8000, by omega⟩
  have q0 : win4_6.index t (0 : Fin 2) = (i 0).val / 8000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 8000 ≤ (i 0).val ∧ (i 0).val < win4_6.index t (0 : Fin 2) * 8000 + 8000; omega
  | ⟨1, _⟩ => show win4_6.index t (1 : Fin 2) * 32 ≤ (i 1).val ∧ (i 1).val < win4_6.index t (1 : Fin 2) * 32 + 32; omega

/-- The array region 4 leaves: the layer of the arrays it found. -/
theorem region_out (c : Dev nD) :
    (dat4 (F := Ideal) V c).arrAt 6 cfg4.N
      = layer (V c main_v79) (V c main_v97) (V c main_v81) (V c main_v98) (V c main_v85) (V c main_v99) :=
  (dat4 (F := Ideal) V c).arrAt_eq_of_cover 6 _ (fun t _ => flushed_eq V c t) cover

end Cert.KernelIdeal.Reg4

end
-- ==== Proof.Region5.lean ====
/-
  Region 5 of the kernel, the head, read as one function of the arrays it finds.  Its grid has one point and every
  window is its whole array: the body applies the first affine map to the 512 pooled rows, the maximum with zero, and
  the second affine map (32 features to 1), the two weight matrices and the two one-row biases read whole.  So the
  array the region leaves is that perceptron of the arrays it found.
-/
import proofs.«179286_j24249385353655_1_alg».proof.Proof.Gen.KernelIdeal.Frame
import proofs.«179286_j24249385353655_1_alg».proof.Proof.LibMlp

set_option maxRecDepth 16384

noncomputable section

namespace Cert.KernelIdeal.Reg5

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.LibMlp

variable (V : (c : Dev nD) → (b : Ref sig .tc) → Buf (Elt Ideal) ((c : Thread nD τ).loc b))

theorem hz : (![0, 0] : Fin 2 → Nat) = fun _ => 0 := funext fun a => by fin_cases a <;> rfl

/-- The head: pooled rows through the two affine maps, the maximum with zero between them. -/
def head (p : (⟨2, ![512, 32]⟩ : Shape).Idx → EReal) (w1 : (⟨2, ![32, 32]⟩ : Shape).Idx → EReal)
    (b1 : (⟨2, ![1, 32]⟩ : Shape).Idx → EReal) (w2 : (⟨2, ![32, 1]⟩ : Shape).Idx → EReal) (b2 : (⟨2, ![1, 1]⟩ : Shape).Idx → EReal) :
    (⟨2, ![512, 1]⟩ : Shape).Idx → EReal :=
  lin (relu (lin p w1 (rowOf b1))) w2 (rowOf b2)

/-- The body's stored value is the head on the loaded arrays. -/
theorem pay_eq (x0 : Vec Ideal S512x32 .f32) (x1 : Vec Ideal S32x32 .f32) (x2 : Vec Ideal S1x32 .f32)
    (x3 : Vec Ideal S32x1 .f32) (x4 : Vec Ideal S1x1 .f32) :
    k5_pay1 (F := Ideal) x0 x1 x2 x3 x4 = head x0 x1 x2 x3 x4 := by
  unfold k5_pay1 head
  simp only [shapeCast_self]
  rw [kernel_lin dot_S512x32_S32x32_S512x32_1_0_0_1_n_n rfl rfl rfl rfl rfl rfl, kernel_relu,
    kernel_lin dot_S512x32_S32x1_S512x1_1_0_0_1_n_n rfl rfl rfl rfl rfl rfl]

/-- Every window's one block sits at (0, 0). -/
theorem idx_facts : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- What the one grid point writes back is the head of the arrays, read through the whole-array block. -/
theorem flushed_eq (c : Dev nD) (t : Fin cfg5.N) :
    (dat5 (F := Ideal) V c).flushed 5 t = ((cfg5.win 5).blk t).view.read (Elt Ideal)
      (head (V c main_v103) (V c main_arg11) (V c main_v104) (V c main_arg13) (V c main_v105)) := by
  show (cfg5.win 5).cut (grid5.coords t) ((dat5 (F := Ideal) V c).after 5 t) = _
  rw [after5_5]
  unfold out5_5
  rw [View.canon_unit_zero hz]
  simp only [View.ld_unit_zero (S := S512x32) hz, View.ld_unit_zero (S := S32x32) hz, View.ld_unit_zero (S := S1x32) hz,
    View.ld_unit_zero (S := S32x1) hz, View.ld_unit_zero (S := S1x1) hz]
  rw [pay_eq]
  obtain ⟨e00, e01, e10, e11, e20, e21, e30, e31, e40, e41, e50, e51⟩ := idx_facts t
  have r0 : iblk5 V c 0 t = V c main_v103 := by
    funext y
    show V c main_v103 (((cfg5.win 0).blk t).view.emb y) = V c main_v103 y
    refine congrArg _ (funext fun a => Fin.ext ?_)
    match a with
    | ⟨0, _⟩ => show win5_0.index t (0 : Fin 2) * 512 + 1 * (y 0).val = (y 0).val; omega
    | ⟨1, _⟩ => show win5_0.index t (1 : Fin 2) * 32 + 1 * (y 1).val = (y 1).val; omega
  have r1 : iblk5 V c 1 t = V c main_arg11 := by
    funext y
    show V c main_arg11 (((cfg5.win 1).blk t).view.emb y) = V c main_arg11 y
    refine congrArg _ (funext fun a => Fin.ext ?_)
    match a with
    | ⟨0, _⟩ => show win5_1.index t (0 : Fin 2) * 32 + 1 * (y 0).val = (y 0).val; omega
    | ⟨1, _⟩ => show win5_1.index t (1 : Fin 2) * 32 + 1 * (y 1).val = (y 1).val; omega
  have r2 : iblk5 V c 2 t = V c main_v104 := by
    funext y
    show V c main_v104 (((cfg5.win 2).blk t).view.emb y) = V c main_v104 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 32 + 1 * (y 1).val = (y 1).val; omega
  have r3 : iblk5 V c 3 t = V c main_arg13 := by
    funext y
    show V c main_arg13 (((cfg5.win 3).blk t).view.emb y) = V c main_arg13 y
    refine congrArg _ (funext fun a => Fin.ext ?_)
    match a with
    | ⟨0, _⟩ => show win5_3.index t (0 : Fin 2) * 32 + 1 * (y 0).val = (y 0).val; omega
    | ⟨1, _⟩ => show win5_3.index t (1 : Fin 2) * 1 + 1 * (y 1).val = (y 1).val; omega
  have r4 : iblk5 V c 4 t = V c main_v105 := by
    funext y
    show V c main_v105 (((cfg5.win 4).blk t).view.emb y) = V c main_v105 y
    refine congrArg _ (funext fun a => Fin.ext ?_)
    match a with
    | ⟨0, _⟩ => show win5_4.index t (0 : Fin 2) * 1 + 1 * (y 0).val = (y 0).val; omega
    | ⟨1, _⟩ => show win5_4.index t (1 : Fin 2) * 1 + 1 * (y 1).val = (y 1).val; omega
  rw [r0, r1, r2, r3, r4]
  funext j
  show head (V c main_v103) (V c main_arg11) (V c main_v104) (V c main_arg13) (V c main_v105) j
    = head (V c main_v103) (V c main_arg11) (V c main_v104) (V c main_arg13) (V c main_v105) (((cfg5.win 5).blk t).view.emb j)
  refine congrArg _ (funext fun a => Fin.ext ?_)
  match a with
  | ⟨0, _⟩ => show (j 0).val = win5_5.index t (0 : Fin 2) * 512 + 1 * (j 0).val; omega
  | ⟨1, _⟩ => show (j 1).val = win5_5.index t (1 : Fin 2) * 1 + 1 * (j 1).val; omega

/-- An index of the array is in the grid point's block iff each coordinate is in the block's range on its axis. -/
theorem mem_blk (t : Fin cfg5.N) (i : S512x1.Idx) :
    i ∈ ((cfg5.win 5).blk t).view.set ↔ ∀ a : Fin 2, win5_5.index t a * S512x1.size a ≤ (i a).val ∧ (i a).val < win5_5.index t a * S512x1.size a + S512x1.size a := by
  show i ∈ ((View.whole main_v106).slice (win5_5.rect t)).set ↔ _
  rw [View.set_slice_whole, Rect.mem_set_unit]
  exact Iff.rfl

/-- The one block is the whole array. -/
theorem cover (i : S512x1.Idx) : ∃ t : Fin cfg5.N, (cfg5.win 5).flush t = true ∧ i ∈ ((cfg5.win 5).blk t).view.set := by
  have hi0 : (i 0).val < 512 := (i 0).isLt
  have hi1 : (i 1).val < 1 := (i 1).isLt
  obtain ⟨e00, e01, e10, e11, e20, e21, e30, e31, e40, e41, e50, e51⟩ := idx_facts t5_0
  refine ⟨t5_0, flush5_5 t5_0, ?_⟩
  rw [mem_blk]
  intro a
  match a with
  | ⟨0, _⟩ => show win5_5.index t5_0 (0 : Fin 2) * 512 ≤ (i 0).val ∧ (i 0).val < win5_5.index t5_0 (0 : Fin 2) * 512 + 512; omega
  | ⟨1, _⟩ => show win5_5.index t5_0 (1 : Fin 2) * 1 ≤ (i 1).val ∧ (i 1).val < win5_5.index t5_0 (1 : Fin 2) * 1 + 1; omega

/-- The array region 5 leaves: the head of the arrays it found. -/
theorem region_out (c : Dev nD) :
    (dat5 (F := Ideal) V c).arrAt 5 cfg5.N
      = head (V c main_v103) (V c main_arg11) (V c main_v104) (V c main_arg13) (V c main_v105) :=
  (dat5 (F := Ideal) V c).arrAt_eq_of_cover 5 _ (fun t _ => flushed_eq V c t) cover

end Cert.KernelIdeal.Reg5

end
-- ==== Proof.KChain.lean ====
/-
  The kernel's run, boundary by boundary, against the reference's stages.  Between its six regions the kernel program
  runs stretches of host operations; the buffer contents at the thirteen boundaries are a fold from the launch memory.
  Walking the fold: the first stretch computes the source and target node vectors of the edges and the first neighbour
  sum; each region leaves the row-wise perceptron of what it found, which is the reference's layer of the same stage;
  each later stretch slices the stacked weights, reshapes the biases to one row and computes the next neighbour sum
  from the features just written; the last two stretches pool the rows by graph and reshape the head's column to a
  vector.  The argument arrays, the two node vectors and the previous features are never overwritten on the way, so
  each boundary knows them as the launch memory's.  Hence the result buffer ends at the reference's last stage.
-/
import proofs.«179286_j24249385353655_1_alg».proof.Proof.Gen.KernelIdeal.Frame
import proofs.«179286_j24249385353655_1_alg».proof.Proof.Gen.ReferenceIdeal.Read
import proofs.«179286_j24249385353655_1_alg».proof.Proof.LibMlp
import proofs.«179286_j24249385353655_1_alg».proof.Proof.AggDefs
import proofs.«179286_j24249385353655_1_alg».proof.Proof.Bridge
import proofs.«179286_j24249385353655_1_alg».proof.Proof.KHost
import proofs.«179286_j24249385353655_1_alg».proof.Proof.Region0
import proofs.«179286_j24249385353655_1_alg».proof.Proof.Region1
import proofs.«179286_j24249385353655_1_alg».proof.Proof.Region2
import proofs.«179286_j24249385353655_1_alg».proof.Proof.Region3
import proofs.«179286_j24249385353655_1_alg».proof.Proof.Region4
import proofs.«179286_j24249385353655_1_alg».proof.Proof.Region5

set_option maxRecDepth 16384

noncomputable section

namespace Cert.KernelIdeal.KChain

open Idealize.ShloMosaic Idealize.ShloMosaic.TcCoe Idealize.SL.Sem Idealize.ShloMosaic.ValueIdx
open Cert.KernelIdeal Cert.KernelIdeal.Gen Cert.LibMlp Cert.ReferenceIdeal.Read Cert.Gin Cert.Gin.Bridge

variable (m : (ℓ : Loc nD τ sig) → Buf (Elt Ideal) ℓ) (ρ : Dev nD → PrngReg) (c : Dev nD)

/-- What a boundary knows of the launch memory: the edges' source and target node vectors, and the argument arrays the
    later stretches and the head still read. -/
structure Carried (W : Valuation τ sig (Elt Ideal)) : Prop where
  src : W (Proc.devRef .tc main_v1) = val_main_v1 (F := Ideal) (m ((c : Thread nD τ).loc main_arg1))
  dst : W (Proc.devRef .tc main_v3) = val_main_v3 (F := Ideal) (m ((c : Thread nD τ).loc main_arg1))
  arg2 : W (Proc.devRef .tc main_arg2) = m ((c : Thread nD τ).loc main_arg2)
  arg7 : W (Proc.devRef .tc main_arg7) = m ((c : Thread nD τ).loc main_arg7)
  arg8 : W (Proc.devRef .tc main_arg8) = m ((c : Thread nD τ).loc main_arg8)
  arg9 : W (Proc.devRef .tc main_arg9) = m ((c : Thread nD τ).loc main_arg9)
  arg10 : W (Proc.devRef .tc main_arg10) = m ((c : Thread nD τ).loc main_arg10)
  arg11 : W (Proc.devRef .tc main_arg11) = m ((c : Thread nD τ).loc main_arg11)
  arg12 : W (Proc.devRef .tc main_arg12) = m ((c : Thread nD τ).loc main_arg12)
  arg13 : W (Proc.devRef .tc main_arg13) = m ((c : Thread nD τ).loc main_arg13)
  arg14 : W (Proc.devRef .tc main_arg14) = m ((c : Thread nD τ).loc main_arg14)

/-- A step that writes none of the carried buffers hands the knowledge on. -/
theorem Carried.of_keep {W W' : Valuation τ sig (Elt Ideal)}
    (h : ∀ b ∈ KHost.carry, W' (Proc.devRef .tc b) = W (Proc.devRef .tc b)) (hc : Carried m c W) : Carried m c W' where
  src := (h main_v1 (by simp only [KHost.carry, List.mem_cons, List.mem_nil_iff, or_false, true_or, or_true])).trans hc.src
  dst := (h main_v3 (by simp only [KHost.carry, List.mem_cons, List.mem_nil_iff, or_false, true_or, or_true])).trans hc.dst
  arg2 := (h main_arg2 (by simp only [KHost.carry, List.mem_cons, List.mem_nil_iff, or_false, true_or, or_true])).trans hc.arg2
  arg7 := (h main_arg7 (by simp only [KHost.carry, List.mem_cons, List.mem_nil_iff, or_false, true_or, or_true])).trans hc.arg7
  arg8 := (h main_arg8 (by simp only [KHost.carry, List.mem_cons, List.mem_nil_iff, or_false, true_or, or_true])).trans hc.arg8
  arg9 := (h main_arg9 (by simp only [KHost.carry, List.mem_cons, List.mem_nil_iff, or_false, true_or, or_true])).trans hc.arg9
  arg10 := (h main_arg10 (by simp only [KHost.carry, List.mem_cons, List.mem_nil_iff, or_false, true_or, or_true])).trans hc.arg10
  arg11 := (h main_arg11 (by simp only [KHost.carry, List.mem_cons, List.mem_nil_iff, or_false, true_or, or_true])).trans hc.arg11
  arg12 := (h main_arg12 (by simp only [KHost.carry, List.mem_cons, List.mem_nil_iff, or_false, true_or, or_true])).trans hc.arg12
  arg13 := (h main_arg13 (by simp only [KHost.carry, List.mem_cons, List.mem_nil_iff, or_false, true_or, or_true])).trans hc.arg13
  arg14 := (h main_arg14 (by simp only [KHost.carry, List.mem_cons, List.mem_nil_iff, or_false, true_or, or_true])).trans hc.arg14

/-! ## Layer 0 -/

/-- After the first stretch. -/
theorem carriedW1 : Carried m c (W1 m ρ c) where
  src := KHost.host0_src (W0 m ρ c)
  dst := KHost.host0_dst (W0 m ρ c)
  arg2 := KHost.host0_arg2 (W0 m ρ c)
  arg7 := KHost.host0_arg7 (W0 m ρ c)
  arg8 := KHost.host0_arg8 (W0 m ρ c)
  arg9 := KHost.host0_arg9 (W0 m ρ c)
  arg10 := KHost.host0_arg10 (W0 m ρ c)
  arg11 := KHost.host0_arg11 (W0 m ρ c)
  arg12 := KHost.host0_arg12 (W0 m ρ c)
  arg13 := KHost.host0_arg13 (W0 m ρ c)
  arg14 := KHost.host0_arg14 (W0 m ρ c)

/-- Region 0 writes none of the carried buffers. -/
theorem keep_region0 : ∀ b ∈ KHost.carry, W2 m ρ c (Proc.devRef .tc b) = W1 m ρ c (Proc.devRef .tc b) := by
  intro b hb
  simp only [KHost.carry, List.mem_cons, List.mem_nil_iff, or_false] at hb
  rcases hb with rfl | rfl | rfl | rfl | rfl | rfl | rfl | rfl | rfl | rfl | rfl <;>
    exact W2_of_ne m ρ c _ (by decide)

theorem carried0 : Carried m c (W2 m ρ c) :=
  Carried.of_keep m c (keep_region0 m ρ c) (carriedW1 m ρ c)

/-- The features after layer 0 are the reference's. -/
theorem stage0 : W2 m ρ c (Proc.devRef .tc main_v16) = val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine ((W2_arr m ρ c 6).trans (Reg0.region_out (V1 m ρ) c)).trans ?_
  show Reg0.layer (StableHlo.after hostOps0 (W0 m ρ c) (Proc.devRef .tc main_arg0)) (StableHlo.after hostOps0 (W0 m ρ c) (Proc.devRef .tc main_v13))
    (StableHlo.after hostOps0 (W0 m ρ c) (Proc.devRef .tc main_arg3)) (StableHlo.after hostOps0 (W0 m ρ c) (Proc.devRef .tc main_v14))
    (StableHlo.after hostOps0 (W0 m ρ c) (Proc.devRef .tc main_arg5)) (StableHlo.after hostOps0 (W0 m ρ c) (Proc.devRef .tc main_v15)) = _
  rw [KHost.host0_arg0, KHost.host0_agg, KHost.host0_arg3, KHost.host0_b1, KHost.host0_arg5, KHost.host0_b2]
  show Reg0.layer (m ((c : Thread nD τ).loc main_arg0)) (agg3 (m ((c : Thread nD τ).loc main_arg0)) (val_main_v1 (m ((c : Thread nD τ).loc main_arg1))) (val_main_v3 (m ((c : Thread nD τ).loc main_arg1)))) (m ((c : Thread nD τ).loc main_arg3))
    (shapeCast S1x32 (m ((c : Thread nD τ).loc main_arg4)) shapeCasts_S32_S1x32) (m ((c : Thread nD τ).loc main_arg5)) (shapeCast S1x32 (m ((c : Thread nD τ).loc main_arg6)) shapeCasts_S32_S1x32) = _
  unfold Reg0.layer
  rw [rowOf_shapeCast, rowOf_shapeCast, ← val13_eq, ← ref_layer0]

/-! ## Layer 1 -/

/-- Region 1 writes none of the carried buffers. -/
theorem keep_region1 : ∀ b ∈ KHost.carry, W4 m ρ c (Proc.devRef .tc b) = W3 m ρ c (Proc.devRef .tc b) := by
  intro b hb
  simp only [KHost.carry, List.mem_cons, List.mem_nil_iff, or_false] at hb
  rcases hb with rfl | rfl | rfl | rfl | rfl | rfl | rfl | rfl | rfl | rfl | rfl <;>
    exact W4_of_ne m ρ c _ (by decide)

theorem carried1 (hc : Carried m c (W2 m ρ c)) : Carried m c (W4 m ρ c) :=
  Carried.of_keep m c (fun b hb => (keep_region1 m ρ c b hb).trans (KHost.host1_keep (W2 m ρ c) b hb)) hc

/-- The features after layer 1 are the reference's. -/
theorem stage1 (hc : Carried m c (W2 m ρ c))
    (hh : W2 m ρ c (Proc.devRef .tc main_v16) = val_main_v24 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :
    W4 m ρ c (Proc.devRef .tc main_v37) = val_main_v53 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 6).trans (Reg1.region_out (V3 m ρ) c)).trans ?_
  show Reg1.layer (StableHlo.after hostOps1 (W2 m ρ c) (Proc.devRef .tc main_v16)) (StableHlo.after hostOps1 (W2 m ρ c) (Proc.devRef .tc main_v34))
    (StableHlo.after hostOps1 (W2 m ρ c) (Proc.devRef .tc main_v18)) (StableHlo.after hostOps1 (W2 m ρ c) (Proc.devRef .tc main_v35))
    (StableHlo.after hostOps1 (W2 m ρ c) (Proc.devRef .tc main_v22)) (StableHlo.after hostOps1 (W2 m ρ c) (Proc.devRef .tc main_v36)) = _
  rw [KHost.host1_hp, KHost.host1_agg, KHost.host1_w1, KHost.host1_b1, KHost.host1_w2, KHost.host1_b2,
    hh, hc.src, hc.dst, hc.arg7, hc.arg8, hc.arg9, hc.arg10]
  unfold Reg1.layer
  rw [rowOf_shapeCast, rowOf_shapeCast, ← val42_eq, ← ref_layer1]

/-! ## Layer 2 -/

/-- Region 2 writes none of the carried buffers. -/
theorem keep_region2 : ∀ b ∈ KHost.carry, W6 m ρ c (Proc.devRef .tc b) = W5 m ρ c (Proc.devRef .tc b) := by
  intro b hb
  simp only [KHost.carry, List.mem_cons, List.mem_nil_iff, or_false] at hb
  rcases hb with rfl | rfl | rfl | rfl | rfl | rfl | rfl | rfl | rfl | rfl | rfl <;>
    exact W6_of_ne m ρ c _ (by decide)

theorem carried2 (hc : Carried m c (W4 m ρ c)) : Carried m c (W6 m ρ c) :=
  Carried.of_keep m c (fun b hb => (keep_region2 m ρ c b hb).trans (KHost.host2_keep (W4 m ρ c) b hb)) hc

/-- The features after layer 2 are the reference's. -/
theorem stage2 (hc : Carried m c (W4 m ρ c))
    (hh : W4 m ρ c (Proc.devRef .tc main_v37) = val_main_v53 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W6 m ρ c (Proc.devRef .tc main_v58) = val_main_v82 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 6).trans (Reg2.region_out (V5 m ρ) c)).trans ?_
  show Reg2.layer (StableHlo.after hostOps2 (W4 m ρ c) (Proc.devRef .tc main_v37)) (StableHlo.after hostOps2 (W4 m ρ c) (Proc.devRef .tc main_v55))
    (StableHlo.after hostOps2 (W4 m ρ c) (Proc.devRef .tc main_v39)) (StableHlo.after hostOps2 (W4 m ρ c) (Proc.devRef .tc main_v56))
    (StableHlo.after hostOps2 (W4 m ρ c) (Proc.devRef .tc main_v43)) (StableHlo.after hostOps2 (W4 m ρ c) (Proc.devRef .tc main_v57)) = _
  rw [KHost.host2_hp, KHost.host2_agg, KHost.host2_w1, KHost.host2_b1, KHost.host2_w2, KHost.host2_b2,
    hh, hc.src, hc.dst, hc.arg7, hc.arg8, hc.arg9, hc.arg10]
  unfold Reg2.layer
  rw [rowOf_shapeCast, rowOf_shapeCast, ← val71_eq, ← ref_layer2]

/-! ## Layer 3 -/

/-- Region 3 writes none of the carried buffers. -/
theorem keep_region3 : ∀ b ∈ KHost.carry, W8 m ρ c (Proc.devRef .tc b) = W7 m ρ c (Proc.devRef .tc b) := by
  intro b hb
  simp only [KHost.carry, List.mem_cons, List.mem_nil_iff, or_false] at hb
  rcases hb with rfl | rfl | rfl | rfl | rfl | rfl | rfl | rfl | rfl | rfl | rfl <;>
    exact W8_of_ne m ρ c _ (by decide)

theorem carried3 (hc : Carried m c (W6 m ρ c)) : Carried m c (W8 m ρ c) :=
  Carried.of_keep m c (fun b hb => (keep_region3 m ρ c b hb).trans (KHost.host3_keep (W6 m ρ c) b hb)) hc

/-- The features after layer 3 are the reference's. -/
theorem stage3 (hc : Carried m c (W6 m ρ c))
    (hh : W6 m ρ c (Proc.devRef .tc main_v58) = val_main_v82 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W8 m ρ c (Proc.devRef .tc main_v79) = val_main_v111 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W8_arr m ρ c 6).trans (Reg3.region_out (V7 m ρ) c)).trans ?_
  show Reg3.layer (StableHlo.after hostOps3 (W6 m ρ c) (Proc.devRef .tc main_v58)) (StableHlo.after hostOps3 (W6 m ρ c) (Proc.devRef .tc main_v76))
    (StableHlo.after hostOps3 (W6 m ρ c) (Proc.devRef .tc main_v60)) (StableHlo.after hostOps3 (W6 m ρ c) (Proc.devRef .tc main_v77))
    (StableHlo.after hostOps3 (W6 m ρ c) (Proc.devRef .tc main_v64)) (StableHlo.after hostOps3 (W6 m ρ c) (Proc.devRef .tc main_v78)) = _
  rw [KHost.host3_hp, KHost.host3_agg, KHost.host3_w1, KHost.host3_b1, KHost.host3_w2, KHost.host3_b2,
    hh, hc.src, hc.dst, hc.arg7, hc.arg8, hc.arg9, hc.arg10]
  unfold Reg3.layer
  rw [rowOf_shapeCast, rowOf_shapeCast, ← val100_eq, ← ref_layer3]

/-! ## Layer 4 -/

/-- Region 4 writes none of the carried buffers. -/
theorem keep_region4 : ∀ b ∈ KHost.carry, W10 m ρ c (Proc.devRef .tc b) = W9 m ρ c (Proc.devRef .tc b) := by
  intro b hb
  simp only [KHost.carry, List.mem_cons, List.mem_nil_iff, or_false] at hb
  rcases hb with rfl | rfl | rfl | rfl | rfl | rfl | rfl | rfl | rfl | rfl | rfl <;>
    exact W10_of_ne m ρ c _ (by decide)

theorem carried4 (hc : Carried m c (W8 m ρ c)) : Carried m c (W10 m ρ c) :=
  Carried.of_keep m c (fun b hb => (keep_region4 m ρ c b hb).trans (KHost.host4_keep (W8 m ρ c) b hb)) hc

/-- The features after layer 4 are the reference's. -/
theorem stage4 (hc : Carried m c (W8 m ρ c))
    (hh : W8 m ρ c (Proc.devRef .tc main_v79) = val_main_v111 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W10 m ρ c (Proc.devRef .tc main_v100) = val_main_v139 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W10_arr m ρ c 6).trans (Reg4.region_out (V9 m ρ) c)).trans ?_
  show Reg4.layer (StableHlo.after hostOps4 (W8 m ρ c) (Proc.devRef .tc main_v79)) (StableHlo.after hostOps4 (W8 m ρ c) (Proc.devRef .tc main_v97))
    (StableHlo.after hostOps4 (W8 m ρ c) (Proc.devRef .tc main_v81)) (StableHlo.after hostOps4 (W8 m ρ c) (Proc.devRef .tc main_v98))
    (StableHlo.after hostOps4 (W8 m ρ c) (Proc.devRef .tc main_v85)) (StableHlo.after hostOps4 (W8 m ρ c) (Proc.devRef .tc main_v99)) = _
  rw [KHost.host4_hp, KHost.host4_agg, KHost.host4_w1, KHost.host4_b1, KHost.host4_w2, KHost.host4_b2,
    hh, hc.src, hc.dst, hc.arg7, hc.arg8, hc.arg9, hc.arg10]
  unfold Reg4.layer
  rw [rowOf_shapeCast, rowOf_shapeCast, ← val129_eq, ← ref_layer4]

/-! ## Pooling and the head -/

/-- The head's output column is the reference's. -/
theorem stage5 (hc : Carried m c (W10 m ρ c))
    (hh : W10 m ρ c (Proc.devRef .tc main_v100) = val_main_v139 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W12 m ρ c (Proc.devRef .tc main_v106) = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine ((W12_arr m ρ c 5).trans (Reg5.region_out (V11 m ρ) c)).trans ?_
  show Reg5.head (StableHlo.after hostOps5 (W10 m ρ c) (Proc.devRef .tc main_v103)) (StableHlo.after hostOps5 (W10 m ρ c) (Proc.devRef .tc main_arg11))
    (StableHlo.after hostOps5 (W10 m ρ c) (Proc.devRef .tc main_v104)) (StableHlo.after hostOps5 (W10 m ρ c) (Proc.devRef .tc main_arg13))
    (StableHlo.after hostOps5 (W10 m ρ c) (Proc.devRef .tc main_v105)) = _
  rw [KHost.host5_pool, KHost.host5_arg11, KHost.host5_b1, KHost.host5_arg13, KHost.host5_b2,
    hh, hc.arg2, hc.arg11, hc.arg12, hc.arg13, hc.arg14]
  unfold Reg5.head
  rw [rowOf_shapeCast, rowOf_shapeCast, ← val142_eq, ← ref_head]

/-- THE RESULT: the last boundary holds, at the result buffer, the reference's last stage of the launch arguments. -/
theorem result : W13 m ρ c (Proc.devRef .tc main_v107) = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h0 := stage0 m ρ c
  have c0 := carried0 m ρ c
  have h1 := stage1 m ρ c c0 h0
  have c1 := carried1 m ρ c c0
  have h2 := stage2 m ρ c c1 h1
  have c2 := carried2 m ρ c c1
  have h3 := stage3 m ρ c c2 h2
  have c3 := carried3 m ρ c c2
  have h4 := stage4 m ρ c c3 h3
  have c4 := carried4 m ρ c c3
  have h5 := stage5 m ρ c c4 h4
  show StableHlo.after hostOps6 (W12 m ρ c) (Proc.devRef .tc main_v107) = _
  rw [KHost.host6_out, h5]
  rfl

end Cert.KernelIdeal.KChain

end
-- ==== Proof.lean ====
/-
  A five-layer graph network (sum aggregation over 6.4 million edges, two affine maps per layer on 200000 nodes) with a
  per-graph sum and a two-layer head, computed by six tiled kernels between host gathers and scatter-adds, against
  its plain array reference.  At the ideal values both programs compute the same function of the arguments, entry
  by entry and with no condition on the inputs: the gathers and scatter-adds are the same host operations on both sides,
  a narrowing to bf16 is the identity, a matrix product accumulated into zero is the host's product, each row of a
  perceptron depends on its own input row only (so 25 blocks of 8000 rows give the whole array), and a bias reshaped to
  one row and repeated down the rows is the bias broadcast along the columns.  The kernel's run is read through the
  thirteen boundaries of its regions and host stretches (KRun, KChain); the reference's run and its stages are the
  modules generated for it (Run, Read).  No operation was rewritten on the way to the ideal program, so the
  idealization claim is empty.
-/
import proofs.«179286_j24249385353655_1_alg».proof.Defs
import proofs.«179286_j24249385353655_1_alg».proof.Proof.Gen.Kernel
import proofs.«179286_j24249385353655_1_alg».proof.Proof.Gen.Kernel.Skeleton
import proofs.«179286_j24249385353655_1_alg».proof.Proof.Gen.Kernel.Launch
import proofs.«179286_j24249385353655_1_alg».proof.Proof.Gen.Kernel.Points
import proofs.«179286_j24249385353655_1_alg».proof.Proof.Gen.Kernel.Frame
import proofs.«179286_j24249385353655_1_alg».proof.Proof.Gen.KernelIdeal
import proofs.«179286_j24249385353655_1_alg».proof.Proof.Gen.KernelIdeal.Skeleton
import proofs.«179286_j24249385353655_1_alg».proof.Proof.Gen.KernelIdeal.Launch
import proofs.«179286_j24249385353655_1_alg».proof.Proof.Gen.KernelIdeal.Points
import proofs.«179286_j24249385353655_1_alg».proof.Proof.Gen.KernelIdeal.Frame
import proofs.«179286_j24249385353655_1_alg».proof.Proof.Gen.ReferenceIdeal
import proofs.«179286_j24249385353655_1_alg».proof.Proof.Gen.Pre_finite_inputs
import proofs.«179286_j24249385353655_1_alg».proof.Proof.Gen.ReferenceIdeal.Run
import proofs.«179286_j24249385353655_1_alg».proof.Proof.Gen.ReferenceIdeal.Read
import proofs.«179286_j24249385353655_1_alg».proof.Proof.KRun
import proofs.«179286_j24249385353655_1_alg».proof.Proof.KChain
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- At the ideal values the two programs, run from memories that agree on the arguments, end with the same result: the
    reference's last stage of the kernel's arguments. -/
theorem algebraic : Cert.algebraic_KernelIdeal_ReferenceIdeal := by
  intro m ρ m' ρ' _ hagree
  refine ⟨fun c => Cert.ReferenceIdeal.Read.val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KChain.result m ρ c), (h c).2⟩)
      (Cert.KernelIdeal.KRun.run_value (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14⟩ := hagree c
    rw [(h c).1, Cert.ReferenceIdeal.Read.val_main_v152_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
